-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x768 : Shape := ⟨3, ![16, 64, 768]⟩
abbrev S128x256x768 : Shape := ⟨3, ![128, 256, 768]⟩
abbrev S_ : Shape := ⟨0, ![]⟩

class Facts : Prop where
  bcast_S_S16x64x768 : S_.BroadcastsInDim S16x64x768 (![] : Fin 0 → Fin S16x64x768.rank)
  reducesTo_S16x64x768_S_d0_1_2 : S16x64x768.ReducesTo [0, 1, 2] S_
  h_S_ : 0 < S_.numel
  bcast_S_S128x256x768 : S_.BroadcastsInDim S128x256x768 (![] : Fin 0 → Fin S128x256x768.rank)
  reducesTo_S128x256x768_S_d0_1_2 : S128x256x768.ReducesTo [0, 1, 2] S_

variable [Facts]

def fn {F : FTy → Type} [FloatOps F] (main_arg0 : FVec F S16x64x768 .f32) (main_arg1 : FVec F S128x256x768 .f32) : IVec S_ 1 :=
  let main_v0 : FVec F S16x64x768 .f32 := Host.absf main_arg0
  let main_cst : FVec F S_ .f32 := constant S_ .f32 0x7F800000#32
  let main_v1 : FVec F S16x64x768 .f32 := broadcastInDim S16x64x768 ![] bcast_S_S16x64x768 main_cst
  let main_v2 : IVec S16x64x768 1 := cmpf .olt main_v0 main_v1
  let main_c : IVec S_ 1 := constantI S_ 1 1#1
  let main_v3 : IVec S_ 1 := (fun x v => Host.reduce IntOp.andi x v reducesTo_S16x64x768_S_d0_1_2 h_S_) main_v2 main_c
  let main_v4 : FVec F S128x256x768 .f32 := Host.absf main_arg1
  let main_cst_0 : FVec F S_ .f32 := constant S_ .f32 0x7F800000#32
  let main_v5 : FVec F S128x256x768 .f32 := broadcastInDim S128x256x768 ![] bcast_S_S128x256x768 main_cst_0
  let main_v6 : IVec S128x256x768 1 := cmpf .olt main_v4 main_v5
  let main_c_1 : IVec S_ 1 := constantI S_ 1 1#1
  let main_v7 : IVec S_ 1 := (fun x v => Host.reduce IntOp.andi x v reducesTo_S128x256x768_S_d0_1_2 h_S_) main_v6 main_c_1
  let main_v8 : IVec S_ 1 := andi main_v3 main_v7
  main_v8
-- ==== Kernel.lean ====
abbrev S16x64x768 : Shape := ⟨3, ![16, 64, 768]⟩
abbrev S128x256x768 : Shape := ⟨3, ![128, 256, 768]⟩
abbrev S16x1x768 : Shape := ⟨3, ![16, 1, 768]⟩
abbrev S16x768 : Shape := ⟨2, ![16, 768]⟩
abbrev S128x1x768 : Shape := ⟨3, ![128, 1, 768]⟩
abbrev S128x768 : Shape := ⟨2, ![128, 768]⟩
abbrev S128x16 : Shape := ⟨2, ![128, 16]⟩
abbrev S8x256x768 : Shape := ⟨3, ![8, 256, 768]⟩
abbrev S8x16 : Shape := ⟨2, ![8, 16]⟩
abbrev S16x64 : Shape := ⟨2, ![16, 64]⟩
abbrev S16x64x1 : Shape := ⟨3, ![16, 64, 1]⟩
abbrev S8x256 : Shape := ⟨2, ![8, 256]⟩
abbrev S8x256x1 : Shape := ⟨3, ![8, 256, 1]⟩
abbrev S1024x768 : Shape := ⟨2, ![1024, 768]⟩
abbrev S2048x768 : Shape := ⟨2, ![2048, 768]⟩
abbrev S1024x2048 : Shape := ⟨2, ![1024, 2048]⟩
abbrev S16x64x8x256 : Shape := ⟨4, ![16, 64, 8, 256]⟩
abbrev S16x64x8 : Shape := ⟨3, ![16, 64, 8]⟩
abbrev S16x8x64 : Shape := ⟨3, ![16, 8, 64]⟩
abbrev S16x8 : Shape := ⟨2, ![16, 8]⟩
abbrev S16x128 : Shape := ⟨2, ![16, 128]⟩
abbrev S768x128 : Shape := ⟨2, ![768, 128]⟩
abbrev S_ : Shape := ⟨0, ![]⟩
abbrev S16 : Shape := ⟨1, ![16]⟩
abbrev S16x1 : Shape := ⟨2, ![16, 1]⟩
abbrev S16x2 : Shape := ⟨2, ![16, 2]⟩

abbrev nBuf : Space → Nat
  | .hbm => 221
  | .vmem => 5
  | .smem => 0
  | _ => 0

abbrev hbmTy0_0 (i : Nat) : BufTy := match i % 128 with
  | 0 => ⟨S16x64x768, .f32⟩
  | 1 => ⟨S128x256x768, .f32⟩
  | 2 => ⟨S16x1x768, .f32⟩
  | 3 => ⟨S16x768, .f32⟩
  | 4 => ⟨S128x1x768, .f32⟩
  | 5 => ⟨S128x768, .f32⟩
  | 6 => ⟨S128x16, .f32⟩
  | 7 => ⟨S16x128, .f32⟩
  | 8 => ⟨S768x128, .f32⟩
  | 9 => ⟨S16x128, .f32⟩
  | 10 => ⟨S_, .f32⟩
  | 11 => ⟨S16x128, .f32⟩
  | 12 => ⟨S16x128, .f32⟩
  | 13 => ⟨S_, .f32⟩
  | 14 => ⟨S16x128, .f32⟩
  | 15 => ⟨S16x128, .f32⟩
  | 16 => ⟨S16, .i32⟩
  | 17 => ⟨S_, .i32⟩
  | 18 => ⟨S16, .i32⟩
  | 19 => ⟨S16, .i32⟩
  | 20 => ⟨S_, .f32⟩
  | 21 => ⟨S16x128, .f32⟩
  | 22 => ⟨S16x128, .f32⟩
  | 23 => ⟨S_, .f32⟩
  | 24 => ⟨S16x128, .f32⟩
  | 25 => ⟨S16x128, .f32⟩
  | 26 => ⟨S16x128, .f32⟩
  | 27 => ⟨S_, .f32⟩
  | 28 => ⟨S16, .f32⟩
  | 29 => ⟨S_, .f32⟩
  | 30 => ⟨S16, .f32⟩
  | 31 => ⟨S16, .f32⟩
  | 32 => ⟨S16x1, .f32⟩
  | 33 => ⟨S16x128, .f32⟩
  | 34 => ⟨S16x128, .f32⟩
  | 35 => ⟨S16x128, .f32⟩
  | 36 => ⟨S_, .f32⟩
  | 37 => ⟨S16, .f32⟩
  | 38 => ⟨S16x1, .f32⟩
  | 39 => ⟨S16x1, .f32⟩
  | 40 => ⟨S16x128, .f32⟩
  | 41 => ⟨S16x128, .f32⟩
  | 42 => ⟨S16, .i32⟩
  | 43 => ⟨S_, .i32⟩
  | 44 => ⟨S16, .i32⟩
  | 45 => ⟨S16, .i1⟩
  | 46 => ⟨S_, .i32⟩
  | 47 => ⟨S16, .i32⟩
  | 48 => ⟨S16, .i32⟩
  | 49 => ⟨S16, .i32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S16x1, .i32⟩
  | 58 => ⟨S16x1, .i32⟩
  | 59 => ⟨S16x2, .i32⟩
  | 60 => ⟨S16, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S16, .f32⟩
  | 68 => ⟨S_, .f32⟩
  | 69 => ⟨S16, .f32⟩
  | 70 => ⟨S16, .f32⟩
  | 71 => ⟨S16x1, .f32⟩
  | 72 => ⟨S16x128, .f32⟩
  | 73 => ⟨S16x128, .f32⟩
  | 74 => ⟨S16x128, .f32⟩
  | 75 => ⟨S_, .f32⟩
  | 76 => ⟨S16, .f32⟩
  | 77 => ⟨S16x1, .f32⟩
  | 78 => ⟨S16x1, .f32⟩
  | 79 => ⟨S16x128, .f32⟩
  | 80 => ⟨S16x128, .f32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i32⟩
  | 88 => ⟨S16, .i32⟩
  | 89 => ⟨S_, .i32⟩
  | 90 => ⟨S16, .i32⟩
  | 91 => ⟨S16, .i1⟩
  | 92 => ⟨S_, .i32⟩
  | 93 => ⟨S16, .i32⟩
  | 94 => ⟨S16, .i32⟩
  | 95 => ⟨S16, .i32⟩
  | 96 => ⟨S16x1, .i32⟩
  | 97 => ⟨S16x1, .i32⟩
  | 98 => ⟨S16x2, .i32⟩
  | 99 => ⟨S16, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S16, .f32⟩
  | 107 => ⟨S_, .f32⟩
  | 108 => ⟨S16, .f32⟩
  | 109 => ⟨S16, .f32⟩
  | 110 => ⟨S16x1, .f32⟩
  | 111 => ⟨S16x128, .f32⟩
  | 112 => ⟨S16x128, .f32⟩
  | 113 => ⟨S16x128, .f32⟩
  | 114 => ⟨S_, .f32⟩
  | 115 => ⟨S16, .f32⟩
  | 116 => ⟨S16x1, .f32⟩
  | 117 => ⟨S16x1, .f32⟩
  | 118 => ⟨S16x128, .f32⟩
  | 119 => ⟨S16x128, .f32⟩
  | 120 => ⟨S16, .i32⟩
  | 121 => ⟨S_, .i32⟩
  | 122 => ⟨S16, .i32⟩
  | 123 => ⟨S16, .i1⟩
  | 124 => ⟨S_, .i32⟩
  | 125 => ⟨S16, .i32⟩
  | 126 => ⟨S16, .i32⟩
  | 127 => ⟨S16, .i32⟩
  | _ => ⟨S16x64x768, .f32⟩

abbrev hbmTy0_1 (i : Nat) : BufTy := match i % 128 with
  | 0 => ⟨S_, .i32⟩
  | 1 => ⟨S16, .i32⟩
  | 2 => ⟨S16, .i1⟩
  | 3 => ⟨S_, .i32⟩
  | 4 => ⟨S16, .i32⟩
  | 5 => ⟨S16, .i32⟩
  | 6 => ⟨S16, .i32⟩
  | 7 => ⟨S16x1, .i32⟩
  | 8 => ⟨S16x1, .i32⟩
  | 9 => ⟨S16x2, .i32⟩
  | 10 => ⟨S16, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S16, .f32⟩
  | 18 => ⟨S_, .f32⟩
  | 19 => ⟨S16, .f32⟩
  | 20 => ⟨S16, .f32⟩
  | 21 => ⟨S16x1, .f32⟩
  | 22 => ⟨S16x128, .f32⟩
  | 23 => ⟨S16x128, .f32⟩
  | 24 => ⟨S16x128, .f32⟩
  | 25 => ⟨S_, .f32⟩
  | 26 => ⟨S16, .f32⟩
  | 27 => ⟨S16x1, .f32⟩
  | 28 => ⟨S16x1, .f32⟩
  | 29 => ⟨S16x128, .f32⟩
  | 30 => ⟨S16x128, .f32⟩
  | 31 => ⟨S_, .f32⟩
  | 32 => ⟨S16, .f32⟩
  | 33 => ⟨S_, .f32⟩
  | 34 => ⟨S16, .f32⟩
  | 35 => ⟨S16, .f32⟩
  | 36 => ⟨S16x1, .f32⟩
  | 37 => ⟨S16x128, .f32⟩
  | 38 => ⟨S16x128, .f32⟩
  | 39 => ⟨S16x128, .f32⟩
  | 40 => ⟨S_, .f32⟩
  | 41 => ⟨S16, .f32⟩
  | 42 => ⟨S16x1, .f32⟩
  | 43 => ⟨S16x1, .f32⟩
  | 44 => ⟨S16x128, .f32⟩
  | 45 => ⟨S16x128, .f32⟩
  | 46 => ⟨S_, .f32⟩
  | 47 => ⟨S16, .f32⟩
  | 48 => ⟨S_, .f32⟩
  | 49 => ⟨S16, .f32⟩
  | 50 => ⟨S16, .f32⟩
  | 51 => ⟨S16x1, .f32⟩
  | 52 => ⟨S16x128, .f32⟩
  | 53 => ⟨S16x128, .f32⟩
  | 54 => ⟨S16x128, .f32⟩
  | 55 => ⟨S_, .f32⟩
  | 56 => ⟨S16, .f32⟩
  | 57 => ⟨S16x1, .f32⟩
  | 58 => ⟨S16x1, .f32⟩
  | 59 => ⟨S16x128, .f32⟩
  | 60 => ⟨S16x128, .f32⟩
  | 61 => ⟨S16x128, .f32⟩
  | 62 => ⟨S16x128, .f32⟩
  | 63 => ⟨S16x128, .f32⟩
  | 64 => ⟨S_, .f32⟩
  | 65 => ⟨S_, .f32⟩
  | 66 => ⟨S_, .f32⟩
  | 67 => ⟨S_, .f32⟩
  | 68 => ⟨S16x128, .f32⟩
  | 69 => ⟨S16x128, .f32⟩
  | 70 => ⟨S16x128, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | _ => ⟨S16x64x768, .f32⟩

abbrev hbmTy (i : Nat) : BufTy := match i / 128 with
  | 0 => hbmTy0_0 i
  | 1 => hbmTy0_1 i
  | _ => ⟨S16x64x768, .f32⟩

abbrev bufTy : (tb : Table) → Fin (tcTables nBuf tb) → BufTy
  | .hbm, ⟨i, _⟩ => hbmTy i
  | .local _ .vmem, ⟨0, _⟩ => ⟨S16x64x768, .f32⟩
  | .local _ .vmem, ⟨1, _⟩ => ⟨S8x256x768, .f32⟩
  | .local _ .vmem, ⟨2, _⟩ => ⟨S8x256x768, .f32⟩
  | .local _ .vmem, ⟨3, _⟩ => ⟨S8x16, .f32⟩
  | .local _ .vmem, ⟨4, _⟩ => ⟨S8x16, .f32⟩
  | _, _ => ⟨S16x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v39 : Ref sig .tc := ⟨.hbm, 80, rfl⟩
abbrev main_v40 : Ref sig .tc := ⟨.hbm, 81, rfl⟩
abbrev main_c_9 : Ref sig .tc := ⟨.hbm, 82, rfl⟩
abbrev main_v41 : Ref sig .tc := ⟨.hbm, 83, rfl⟩
abbrev main_v42 : Ref sig .tc := ⟨.hbm, 84, rfl⟩
abbrev main_c_10 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_11 : Ref sig .tc := ⟨.hbm, 89, rfl⟩
abbrev main_v46 : Ref sig .tc := ⟨.hbm, 90, rfl⟩
abbrev main_v47 : Ref sig .tc := ⟨.hbm, 91, rfl⟩
abbrev main_c_12 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩
abbrev main_cst_14 : Ref sig .tc := ⟨.hbm, 102, rfl⟩
abbrev main_v56 : Ref sig .tc := ⟨.hbm, 103, rfl⟩
abbrev main_v57 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v58 : Ref sig .tc := ⟨.hbm, 119, rfl⟩
abbrev main_v59 : Ref sig .tc := ⟨.hbm, 120, rfl⟩
abbrev main_c_15 : Ref sig .tc := ⟨.hbm, 121, rfl⟩
abbrev main_v60 : Ref sig .tc := ⟨.hbm, 122, rfl⟩
abbrev main_v61 : Ref sig .tc := ⟨.hbm, 123, rfl⟩
abbrev main_c_16 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_17 : Ref sig .tc := ⟨.hbm, 128, rfl⟩
abbrev main_v65 : Ref sig .tc := ⟨.hbm, 129, rfl⟩
abbrev main_v66 : Ref sig .tc := ⟨.hbm, 130, rfl⟩
abbrev main_c_18 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_19 : Ref sig .tc := ⟨.hbm, 139, rfl⟩
abbrev main_v74 : Ref sig .tc := ⟨.hbm, 140, rfl⟩
abbrev main_cst_20 : Ref sig .tc := ⟨.hbm, 141, rfl⟩
abbrev main_v75 : Ref sig .tc := ⟨.hbm, 142, rfl⟩
abbrev main_v76 : Ref sig .tc := ⟨.hbm, 143, rfl⟩
abbrev main_call3_cst : Ref sig .tc := ⟨.hbm, 144, rfl⟩
abbrev main_call3_v0 : Ref sig .tc := ⟨.hbm, 145, rfl⟩
abbrev main_call3_cst_0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_1 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_v77 : Ref sig .tc := ⟨.hbm, 158, rfl⟩
abbrev main_call4_cst : Ref sig .tc := ⟨.hbm, 159, rfl⟩
abbrev main_call4_v0 : Ref sig .tc := ⟨.hbm, 160, rfl⟩
abbrev main_call4_cst_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_cst_1 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v78 : Ref sig .tc := ⟨.hbm, 173, rfl⟩
abbrev main_call5_cst : Ref sig .tc := ⟨.hbm, 174, rfl⟩
abbrev main_call5_v0 : Ref sig .tc := ⟨.hbm, 175, rfl⟩
abbrev main_call5_cst_0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_v6 : Ref sig .tc := ⟨.hbm, 182, rfl⟩
abbrev main_call5_cst_1 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_cst_21 : Ref sig .tc := ⟨.hbm, 192, rfl⟩
abbrev main_v83 : Ref sig .tc := ⟨.hbm, 193, rfl⟩
abbrev main_cst_22 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_cst_23 : Ref sig .tc := ⟨.hbm, 199, rfl⟩
abbrev main_v88 : Ref sig .tc := ⟨.hbm, 200, rfl⟩
abbrev main_cst_24 : Ref sig .tc := ⟨.hbm, 201, rfl⟩
abbrev main_v89 : Ref sig .tc := ⟨.hbm, 202, rfl⟩
abbrev main_cst_25 : Ref sig .tc := ⟨.hbm, 203, rfl⟩
abbrev main_v90 : Ref sig .tc := ⟨.hbm, 204, rfl⟩
abbrev main_cst_26 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_cst_27 : Ref sig .tc := ⟨.hbm, 209, rfl⟩
abbrev main_v94 : Ref sig .tc := ⟨.hbm, 210, rfl⟩
abbrev main_cst_28 : Ref sig .tc := ⟨.hbm, 211, rfl⟩
abbrev main_v95 : Ref sig .tc := ⟨.hbm, 212, rfl⟩
abbrev main_cst_29 : Ref sig .tc := ⟨.hbm, 213, rfl⟩
abbrev main_v96 : Ref sig .tc := ⟨.hbm, 214, rfl⟩
abbrev main_v97 : Ref sig .tc := ⟨.hbm, 215, rfl⟩
abbrev main_cst_30 : Ref sig .tc := ⟨.hbm, 216, rfl⟩
abbrev main_v98 : Ref sig .tc := ⟨.hbm, 217, rfl⟩
abbrev main_v99 : Ref sig .tc := ⟨.hbm, 218, rfl⟩
abbrev main_cst_31 : Ref sig .tc := ⟨.hbm, 219, rfl⟩
abbrev main_v100 : Ref sig .tc := ⟨.hbm, 220, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x64x768_S16x1x768_0_0_0 : S16x64x768.Slices ![0, 0, 0] S16x1x768
  shapeCasts_S16x1x768_S16x768 : S16x1x768.ShapeCasts S16x768
  slices_S128x256x768_S128x1x768_0_0_0 : S128x256x768.Slices ![0, 0, 0] S128x1x768
  shapeCasts_S128x1x768_S128x768 : S128x1x768.ShapeCasts S128x768
  inb_S16x64x768_S16x64x768_0_0_0 : ∀ a, (![0, 0, 0] : Fin 3 → Nat) a + S16x64x768.size a ≤ S16x64x768.size a
  h_S16x64x768 : 0 < S16x64x768.numel
  inb_S8x256x768_S8x256x768_0_0_0 : ∀ a, (![0, 0, 0] : Fin 3 → Nat) a + S8x256x768.size a ≤ S8x256x768.size a
  h_S8x256x768 : 0 < S8x256x768.numel
  reduces_S16x64x768_S16x64 : S16x64x768.Reduces [2] S16x64
  shapeCasts_S16x64_S16x64x1 : S16x64.ShapeCasts S16x64x1
  broadcasts_S16x64x1_S16x64x768 : S16x64x1.Broadcasts S16x64x768
  reduces_S8x256x768_S8x256 : S8x256x768.Reduces [2] S8x256
  shapeCasts_S8x256_S8x256x1 : S8x256.ShapeCasts S8x256x1
  broadcasts_S8x256x1_S8x256x768 : S8x256x1.Broadcasts S8x256x768
  shapeCasts_S16x64x768_S1024x768 : S16x64x768.ShapeCasts S1024x768
  bitsLt_bf16_f32 : FTy.bits .bf16 < FTy.bits .f32
  shapeCasts_S8x256x768_S2048x768 : S8x256x768.ShapeCasts S2048x768
  shapeCasts_S1024x2048_S16x64x8x256 : S1024x2048.ShapeCasts S16x64x8x256
  reduces_S16x64x8x256_S16x64x8 : S16x64x8x256.Reduces [3] S16x64x8
  transposes_S16x64x8_p0_2_1_S16x8x64 : S16x64x8.Transposes [0, 2, 1] S16x8x64
  reduces_S16x8x64_S16x8 : S16x8x64.Reduces [2] S16x8
  transposes_S16x8_p1_0_S8x16 : S16x8.Transposes [1, 0] S8x16
  inb_S8x16_S8x16_0_0 : ∀ a, (![0, 0] : Fin 2 → Nat) a + S8x16.size a ≤ S8x16.size a
  h_S8x16 : 0 < S8x16.numel
  transposes_S128x16_S16x128_1_0 : S128x16.Transposes [1, 0] S16x128
  transposes_S128x768_S768x128_1_0 : S128x768.Transposes [1, 0] S768x128
  bcast_S_S16x128 : S_.BroadcastsInDim S16x128 (![] : Fin 0 → Fin S16x128.rank)
  bcast_S_S16 : S_.BroadcastsInDim S16 (![] : Fin 0 → Fin S16.rank)
  reducesTo_S16x128_S16_d1 : S16x128.ReducesTo [1] S16
  h_S_ : 0 < S_.numel
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x1_S16x1_S16x2_d1 : Shape.Concatenates [S16x1, S16x1] S16x2 1
  reducesTo_S16_S_d0 : S16.ReducesTo [0] S_
  reducesTo_S16x128_S_d0_1 : S16x128.ReducesTo [0, 1] S_
  dot_S1024x768_S2048x768_S1024x2048_1_1_0_0_n_n_wf : DotDims.WF S1024x768 S2048x768 S1024x2048 [1] [1] [0] [0] [] []
  dot_S16x768_S768x128_S16x128_1_0_0_1_n_n_wf : DotDims.WF S16x768 S768x128 S16x128 [1] [0] [0] [1] [] []
  gather_S16x128_S16x2_S16_n_01_n_n_01_1_11_wf : GatherDims.WF S16x128 S16x2 S16 [] [0, 1] [] [0, 1] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x64x768.size a ≤ S16x64x768.size a
  hwx0_0 : ∀ i : grid0.Coords, EltTy.bits .f32 = 32 ∨ (Rect.block (s := S16x64x768) S16x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x768.size a ≤ S128x256x768.size a
  hwx0_1 : ∀ i : grid0.Coords, EltTy.bits .f32 = 32 ∨ (Rect.block (s := S128x256x768) S8x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S128x16.size a
  hwx0_2 : ∀ i : grid0.Coords, EltTy.bits .f32 = 32 ∨ (Rect.block (s := S128x16) S8x16.size (cc0_transform_2 i) (hinb0_2 i)).WholeWords (EltTy.packing .f32)

variable [Facts₀]

def dot_S1024x768_S2048x768_S1024x2048_1_1_0_0_n_n : DotDims S1024x768 S2048x768 S1024x2048 where
  lhsContracting := [1]
  rhsContracting := [1]
  lhsNonContracting := [0]
  rhsNonContracting := [0]
  lhsBatch := []
  rhsBatch := []
  wf := dot_S1024x768_S2048x768_S1024x2048_1_1_0_0_n_n_wf
def dot_S16x768_S768x128_S16x128_1_0_0_1_n_n : DotDims S16x768 S768x128 S16x128 where
  lhsContracting := [1]
  rhsContracting := [0]
  lhsNonContracting := [0]
  rhsNonContracting := [1]
  lhsBatch := []
  rhsBatch := []
  wf := dot_S16x768_S768x128_S16x128_1_0_0_1_n_n_wf
def gather_S16x128_S16x2_S16_n_01_n_n_01_1_11 : GatherDims S16x128 S16x2 S16 where
  offsetDims := []
  collapsedSliceDims := [0, 1]
  operandBatchingDims := []
  startIndicesBatchingDims := []
  startIndexMap := [0, 1]
  indexVectorDim := 1
  sliceSizes := ![1, 1]
  wf := gather_S16x128_S16x2_S16_n_01_n_n_01_1_11_wf

abbrev win0_0 : Pipeline.Window sig grid0 :=
  Pipeline.Window.ofSpec (Memref.whole main_arg0) S16x64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x768 : Shape := ⟨3, ![16, 64, 768]⟩
abbrev S128x256x768 : Shape := ⟨3, ![128, 256, 768]⟩
abbrev S16x1x768 : Shape := ⟨3, ![16, 1, 768]⟩
abbrev S16x768 : Shape := ⟨2, ![16, 768]⟩
abbrev S128x1x768 : Shape := ⟨3, ![128, 1, 768]⟩
abbrev S128x768 : Shape := ⟨2, ![128, 768]⟩
abbrev S_ : Shape := ⟨0, ![]⟩
abbrev S16x64 : Shape := ⟨2, ![16, 64]⟩
abbrev S16x64x1 : Shape := ⟨3, ![16, 64, 1]⟩
abbrev S128x256 : Shape := ⟨2, ![128, 256]⟩
abbrev S128x256x1 : Shape := ⟨3, ![128, 256, 1]⟩
abbrev S128x256x16x64 : Shape := ⟨4, ![128, 256, 16, 64]⟩
abbrev S16x128x64x256 : Shape := ⟨4, ![16, 128, 64, 256]⟩
abbrev S16x128x64 : Shape := ⟨3, ![16, 128, 64]⟩
abbrev S16x128 : Shape := ⟨2, ![16, 128]⟩
abbrev S768x128 : Shape := ⟨2, ![768, 128]⟩
abbrev S16 : Shape := ⟨1, ![16]⟩
abbrev S16x1 : Shape := ⟨2, ![16, 1]⟩
abbrev S16x2 : Shape := ⟨2, ![16, 2]⟩

abbrev nBuf : Space → Nat
  | .hbm => 245
  | .vmem => 0
  | .smem => 0
  | _ => 0

abbrev hbmTy0_0 (i : Nat) : BufTy := match i % 128 with
  | 0 => ⟨S16x64x768, .f32⟩
  | 1 => ⟨S128x256x768, .f32⟩
  | 2 => ⟨S16x1x768, .f32⟩
  | 3 => ⟨S16x768, .f32⟩
  | 4 => ⟨S128x1x768, .f32⟩
  | 5 => ⟨S128x768, .f32⟩
  | 6 => ⟨S16x64x768, .f32⟩
  | 7 => ⟨S_, .f32⟩
  | 8 => ⟨S16x64, .f32⟩
  | 9 => ⟨S16x64x1, .f32⟩
  | 10 => ⟨S16x64x1, .f32⟩
  | 11 => ⟨S_, .f32⟩
  | 12 => ⟨S16x64x1, .f32⟩
  | 13 => ⟨S16x64x1, .f32⟩
  | 14 => ⟨S16x64x768, .f32⟩
  | 15 => ⟨S16x64x768, .f32⟩
  | 16 => ⟨S128x256x768, .f32⟩
  | 17 => ⟨S_, .f32⟩
  | 18 => ⟨S128x256, .f32⟩
  | 19 => ⟨S128x256x1, .f32⟩
  | 20 => ⟨S128x256x1, .f32⟩
  | 21 => ⟨S_, .f32⟩
  | 22 => ⟨S128x256x1, .f32⟩
  | 23 => ⟨S128x256x1, .f32⟩
  | 24 => ⟨S128x256x768, .f32⟩
  | 25 => ⟨S128x256x768, .f32⟩
  | 26 => ⟨S128x256x16x64, .f32⟩
  | 27 => ⟨S16x128x64x256, .f32⟩
  | 28 => ⟨S_, .f32⟩
  | 29 => ⟨S16x128x64, .f32⟩
  | 30 => ⟨S_, .f32⟩
  | 31 => ⟨S16x128, .f32⟩
  | 32 => ⟨S768x128, .f32⟩
  | 33 => ⟨S16x128, .f32⟩
  | 34 => ⟨S_, .f32⟩
  | 35 => ⟨S16x128, .f32⟩
  | 36 => ⟨S16x128, .f32⟩
  | 37 => ⟨S_, .f32⟩
  | 38 => ⟨S16x128, .f32⟩
  | 39 => ⟨S16x128, .f32⟩
  | 40 => ⟨S16, .i32⟩
  | 41 => ⟨S_, .i32⟩
  | 42 => ⟨S16, .i32⟩
  | 43 => ⟨S16, .i32⟩
  | 44 => ⟨S_, .f32⟩
  | 45 => ⟨S16x128, .f32⟩
  | 46 => ⟨S16x128, .f32⟩
  | 47 => ⟨S_, .f32⟩
  | 48 => ⟨S16x128, .f32⟩
  | 49 => ⟨S16x128, .f32⟩
  | 50 => ⟨S16x128, .f32⟩
  | 51 => ⟨S_, .f32⟩
  | 52 => ⟨S16, .f32⟩
  | 53 => ⟨S_, .f32⟩
  | 54 => ⟨S16, .f32⟩
  | 55 => ⟨S16, .f32⟩
  | 56 => ⟨S16x1, .f32⟩
  | 57 => ⟨S16x128, .f32⟩
  | 58 => ⟨S16x128, .f32⟩
  | 59 => ⟨S16x128, .f32⟩
  | 60 => ⟨S_, .f32⟩
  | 61 => ⟨S16, .f32⟩
  | 62 => ⟨S16x1, .f32⟩
  | 63 => ⟨S16x1, .f32⟩
  | 64 => ⟨S16x128, .f32⟩
  | 65 => ⟨S16x128, .f32⟩
  | 66 => ⟨S16, .i32⟩
  | 67 => ⟨S_, .i32⟩
  | 68 => ⟨S16, .i32⟩
  | 69 => ⟨S16, .i1⟩
  | 70 => ⟨S_, .i32⟩
  | 71 => ⟨S16, .i32⟩
  | 72 => ⟨S16, .i32⟩
  | 73 => ⟨S16, .i32⟩
  | 74 => ⟨S_, .i32⟩
  | 75 => ⟨S16, .i32⟩
  | 76 => ⟨S16, .i1⟩
  | 77 => ⟨S_, .i32⟩
  | 78 => ⟨S16, .i32⟩
  | 79 => ⟨S16, .i32⟩
  | 80 => ⟨S16, .i32⟩
  | 81 => ⟨S16x1, .i32⟩
  | 82 => ⟨S16x1, .i32⟩
  | 83 => ⟨S16x2, .i32⟩
  | 84 => ⟨S16, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S16, .f32⟩
  | 92 => ⟨S_, .f32⟩
  | 93 => ⟨S16, .f32⟩
  | 94 => ⟨S16, .f32⟩
  | 95 => ⟨S16x1, .f32⟩
  | 96 => ⟨S16x128, .f32⟩
  | 97 => ⟨S16x128, .f32⟩
  | 98 => ⟨S16x128, .f32⟩
  | 99 => ⟨S_, .f32⟩
  | 100 => ⟨S16, .f32⟩
  | 101 => ⟨S16x1, .f32⟩
  | 102 => ⟨S16x1, .f32⟩
  | 103 => ⟨S16x128, .f32⟩
  | 104 => ⟨S16x128, .f32⟩
  | 105 => ⟨S16, .i32⟩
  | 106 => ⟨S_, .i32⟩
  | 107 => ⟨S16, .i32⟩
  | 108 => ⟨S16, .i1⟩
  | 109 => ⟨S_, .i32⟩
  | 110 => ⟨S16, .i32⟩
  | 111 => ⟨S16, .i32⟩
  | 112 => ⟨S16, .i32⟩
  | 113 => ⟨S_, .i32⟩
  | 114 => ⟨S16, .i32⟩
  | 115 => ⟨S16, .i1⟩
  | 116 => ⟨S_, .i32⟩
  | 117 => ⟨S16, .i32⟩
  | 118 => ⟨S16, .i32⟩
  | 119 => ⟨S16, .i32⟩
  | 120 => ⟨S16x1, .i32⟩
  | 121 => ⟨S16x1, .i32⟩
  | 122 => ⟨S16x2, .i32⟩
  | 123 => ⟨S16, .f32⟩
  | 124 => ⟨S_, .f32⟩
  | 125 => ⟨S_, .f32⟩
  | 126 => ⟨S_, .f32⟩
  | 127 => ⟨S_, .f32⟩
  | _ => ⟨S16x64x768, .f32⟩

abbrev hbmTy0_1 (i : Nat) : BufTy := match i % 128 with
  | 0 => ⟨S_, .f32⟩
  | 1 => ⟨S_, .f32⟩
  | 2 => ⟨S16, .f32⟩
  | 3 => ⟨S_, .f32⟩
  | 4 => ⟨S16, .f32⟩
  | 5 => ⟨S16, .f32⟩
  | 6 => ⟨S16x1, .f32⟩
  | 7 => ⟨S16x128, .f32⟩
  | 8 => ⟨S16x128, .f32⟩
  | 9 => ⟨S16x128, .f32⟩
  | 10 => ⟨S_, .f32⟩
  | 11 => ⟨S16, .f32⟩
  | 12 => ⟨S16x1, .f32⟩
  | 13 => ⟨S16x1, .f32⟩
  | 14 => ⟨S16x128, .f32⟩
  | 15 => ⟨S16x128, .f32⟩
  | 16 => ⟨S16, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S_, .i32⟩
  | 25 => ⟨S16, .i32⟩
  | 26 => ⟨S16, .i1⟩
  | 27 => ⟨S_, .i32⟩
  | 28 => ⟨S16, .i32⟩
  | 29 => ⟨S16, .i32⟩
  | 30 => ⟨S16, .i32⟩
  | 31 => ⟨S16x1, .i32⟩
  | 32 => ⟨S16x1, .i32⟩
  | 33 => ⟨S16x2, .i32⟩
  | 34 => ⟨S16, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S16, .f32⟩
  | 42 => ⟨S_, .f32⟩
  | 43 => ⟨S16, .f32⟩
  | 44 => ⟨S16, .f32⟩
  | 45 => ⟨S16x1, .f32⟩
  | 46 => ⟨S16x128, .f32⟩
  | 47 => ⟨S16x128, .f32⟩
  | 48 => ⟨S16x128, .f32⟩
  | 49 => ⟨S_, .f32⟩
  | 50 => ⟨S16, .f32⟩
  | 51 => ⟨S16x1, .f32⟩
  | 52 => ⟨S16x1, .f32⟩
  | 53 => ⟨S16x128, .f32⟩
  | 54 => ⟨S16x128, .f32⟩
  | 55 => ⟨S_, .f32⟩
  | 56 => ⟨S16, .f32⟩
  | 57 => ⟨S_, .f32⟩
  | 58 => ⟨S16, .f32⟩
  | 59 => ⟨S16, .f32⟩
  | 60 => ⟨S16x1, .f32⟩
  | 61 => ⟨S16x128, .f32⟩
  | 62 => ⟨S16x128, .f32⟩
  | 63 => ⟨S16x128, .f32⟩
  | 64 => ⟨S_, .f32⟩
  | 65 => ⟨S16, .f32⟩
  | 66 => ⟨S16x1, .f32⟩
  | 67 => ⟨S16x1, .f32⟩
  | 68 => ⟨S16x128, .f32⟩
  | 69 => ⟨S16x128, .f32⟩
  | 70 => ⟨S_, .f32⟩
  | 71 => ⟨S16, .f32⟩
  | 72 => ⟨S_, .f32⟩
  | 73 => ⟨S16, .f32⟩
  | 74 => ⟨S16, .f32⟩
  | 75 => ⟨S16x1, .f32⟩
  | 76 => ⟨S16x128, .f32⟩
  | 77 => ⟨S16x128, .f32⟩
  | 78 => ⟨S16x128, .f32⟩
  | 79 => ⟨S_, .f32⟩
  | 80 => ⟨S16, .f32⟩
  | 81 => ⟨S16x1, .f32⟩
  | 82 => ⟨S16x1, .f32⟩
  | 83 => ⟨S16x128, .f32⟩
  | 84 => ⟨S16x128, .f32⟩
  | 85 => ⟨S16x128, .f32⟩
  | 86 => ⟨S16x128, .f32⟩
  | 87 => ⟨S16x128, .f32⟩
  | 88 => ⟨S_, .f32⟩
  | 89 => ⟨S_, .f32⟩
  | 90 => ⟨S_, .f32⟩
  | 91 => ⟨S_, .f32⟩
  | 92 => ⟨S16x128, .f32⟩
  | 93 => ⟨S16x128, .f32⟩
  | 94 => ⟨S16x128, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S16x64x768, .f32⟩

abbrev hbmTy (i : Nat) : BufTy := match i / 128 with
  | 0 => hbmTy0_0 i
  | 1 => hbmTy0_1 i
  | _ => ⟨S16x64x768, .f32⟩

abbrev bufTy : (tb : Table) → Fin (tcTables nBuf tb) → BufTy
  | .hbm, ⟨i, _⟩ => hbmTy i
  | _, _ => ⟨S16x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_call2_cst_0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_cst_1 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_9 : Ref sig .tc := ⟨.hbm, 74, rfl⟩
abbrev main_v39 : Ref sig .tc := ⟨.hbm, 75, rfl⟩
abbrev main_v40 : Ref sig .tc := ⟨.hbm, 76, rfl⟩
abbrev main_c_10 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_call3_cst : Ref sig .tc := ⟨.hbm, 90, rfl⟩
abbrev main_call3_v0 : Ref sig .tc := ⟨.hbm, 91, rfl⟩
abbrev main_call3_cst_0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_cst_1 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_v51 : Ref sig .tc := ⟨.hbm, 104, rfl⟩
abbrev main_v52 : Ref sig .tc := ⟨.hbm, 105, rfl⟩
abbrev main_c_13 : Ref sig .tc := ⟨.hbm, 106, rfl⟩
abbrev main_v53 : Ref sig .tc := ⟨.hbm, 107, rfl⟩
abbrev main_v54 : Ref sig .tc := ⟨.hbm, 108, rfl⟩
abbrev main_c_14 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_15 : Ref sig .tc := ⟨.hbm, 113, rfl⟩
abbrev main_v58 : Ref sig .tc := ⟨.hbm, 114, rfl⟩
abbrev main_v59 : Ref sig .tc := ⟨.hbm, 115, rfl⟩
abbrev main_c_16 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_17 : Ref sig .tc := ⟨.hbm, 124, rfl⟩
abbrev main_v67 : Ref sig .tc := ⟨.hbm, 125, rfl⟩
abbrev main_cst_18 : Ref sig .tc := ⟨.hbm, 126, rfl⟩
abbrev main_v68 : Ref sig .tc := ⟨.hbm, 127, rfl⟩
abbrev main_v69 : Ref sig .tc := ⟨.hbm, 128, rfl⟩
abbrev main_call4_cst : Ref sig .tc := ⟨.hbm, 129, rfl⟩
abbrev main_call4_v0 : Ref sig .tc := ⟨.hbm, 130, rfl⟩
abbrev main_call4_cst_0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_cst_1 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_v70 : Ref sig .tc := ⟨.hbm, 143, rfl⟩
abbrev main_v71 : Ref sig .tc := ⟨.hbm, 144, rfl⟩
abbrev main_c_19 : Ref sig .tc := ⟨.hbm, 145, rfl⟩
abbrev main_v72 : Ref sig .tc := ⟨.hbm, 146, rfl⟩
abbrev main_v73 : Ref sig .tc := ⟨.hbm, 147, rfl⟩
abbrev main_c_20 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_c_21 : Ref sig .tc := ⟨.hbm, 152, rfl⟩
abbrev main_v77 : Ref sig .tc := ⟨.hbm, 153, rfl⟩
abbrev main_v78 : Ref sig .tc := ⟨.hbm, 154, rfl⟩
abbrev main_c_22 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_23 : Ref sig .tc := ⟨.hbm, 163, rfl⟩
abbrev main_v86 : Ref sig .tc := ⟨.hbm, 164, rfl⟩
abbrev main_cst_24 : Ref sig .tc := ⟨.hbm, 165, rfl⟩
abbrev main_v87 : Ref sig .tc := ⟨.hbm, 166, rfl⟩
abbrev main_v88 : Ref sig .tc := ⟨.hbm, 167, rfl⟩
abbrev main_call5_cst : Ref sig .tc := ⟨.hbm, 168, rfl⟩
abbrev main_call5_v0 : Ref sig .tc := ⟨.hbm, 169, rfl⟩
abbrev main_call5_cst_0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_v6 : Ref sig .tc := ⟨.hbm, 176, rfl⟩
abbrev main_call5_cst_1 : Ref sig .tc := ⟨.hbm, 177, rfl⟩
abbrev main_call5_v7 : Ref sig .tc := ⟨.hbm, 178, rfl⟩
abbrev main_call5_v8 : Ref sig .tc := ⟨.hbm, 179, rfl⟩
abbrev main_call5_v9 : Ref sig .tc := ⟨.hbm, 180, rfl⟩
abbrev main_call5_v10 : Ref sig .tc := ⟨.hbm, 181, rfl⟩
abbrev main_v89 : Ref sig .tc := ⟨.hbm, 182, rfl⟩
abbrev main_call6_cst : Ref sig .tc := ⟨.hbm, 183, rfl⟩
abbrev main_call6_v0 : Ref sig .tc := ⟨.hbm, 184, rfl⟩
abbrev main_call6_cst_0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_cst_1 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_v90 : Ref sig .tc := ⟨.hbm, 197, rfl⟩
abbrev main_call7_cst : Ref sig .tc := ⟨.hbm, 198, rfl⟩
abbrev main_call7_v0 : Ref sig .tc := ⟨.hbm, 199, rfl⟩
abbrev main_call7_cst_0 : Ref sig .tc := ⟨.hbm, 200, rfl⟩
abbrev main_call7_v1 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_v6 : Ref sig .tc := ⟨.hbm, 206, rfl⟩
abbrev main_call7_cst_1 : Ref sig .tc := ⟨.hbm, 207, rfl⟩
abbrev main_call7_v7 : Ref sig .tc := ⟨.hbm, 208, rfl⟩
abbrev main_call7_v8 : Ref sig .tc := ⟨.hbm, 209, rfl⟩
abbrev main_call7_v9 : Ref sig .tc := ⟨.hbm, 210, rfl⟩
abbrev main_call7_v10 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_cst_25 : Ref sig .tc := ⟨.hbm, 216, rfl⟩
abbrev main_v95 : Ref sig .tc := ⟨.hbm, 217, rfl⟩
abbrev main_cst_26 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_cst_27 : Ref sig .tc := ⟨.hbm, 223, rfl⟩
abbrev main_v100 : Ref sig .tc := ⟨.hbm, 224, rfl⟩
abbrev main_cst_28 : Ref sig .tc := ⟨.hbm, 225, rfl⟩
abbrev main_v101 : Ref sig .tc := ⟨.hbm, 226, rfl⟩
abbrev main_cst_29 : Ref sig .tc := ⟨.hbm, 227, rfl⟩
abbrev main_v102 : Ref sig .tc := ⟨.hbm, 228, rfl⟩
abbrev main_cst_30 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_cst_31 : Ref sig .tc := ⟨.hbm, 233, rfl⟩
abbrev main_v106 : Ref sig .tc := ⟨.hbm, 234, rfl⟩
abbrev main_cst_32 : Ref sig .tc := ⟨.hbm, 235, rfl⟩
abbrev main_v107 : Ref sig .tc := ⟨.hbm, 236, rfl⟩
abbrev main_cst_33 : Ref sig .tc := ⟨.hbm, 237, rfl⟩
abbrev main_v108 : Ref sig .tc := ⟨.hbm, 238, rfl⟩
abbrev main_v109 : Ref sig .tc := ⟨.hbm, 239, rfl⟩
abbrev main_cst_34 : Ref sig .tc := ⟨.hbm, 240, rfl⟩
abbrev main_v110 : Ref sig .tc := ⟨.hbm, 241, rfl⟩
abbrev main_v111 : Ref sig .tc := ⟨.hbm, 242, rfl⟩
abbrev main_cst_35 : Ref sig .tc := ⟨.hbm, 243, rfl⟩
abbrev main_v112 : Ref sig .tc := ⟨.hbm, 244, rfl⟩

abbrev nD : Nat := 1
abbrev τ : Topo := Topo.v7x

variable {F : FTy → Type} [FloatOps F]

class Facts₀ : Prop where
  slices_S16x64x768_S16x1x768_0_0_0 : S16x64x768.Slices ![0, 0, 0] S16x1x768
  shapeCasts_S16x1x768_S16x768 : S16x1x768.ShapeCasts S16x768
  slices_S128x256x768_S128x1x768_0_0_0 : S128x256x768.Slices ![0, 0, 0] S128x1x768
  shapeCasts_S128x1x768_S128x768 : S128x1x768.ShapeCasts S128x768
  reducesTo_S16x64x768_S16x64_d2 : S16x64x768.ReducesTo [2] S16x64
  h_S_ : 0 < S_.numel
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x768_0_1_2 : S16x64x1.BroadcastsInDim S16x64x768 (![0, 1, 2] : Fin 3 → Fin S16x64x768.rank)
  reducesTo_S128x256x768_S128x256_d2 : S128x256x768.ReducesTo [2] S128x256
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x768_0_1_2 : S128x256x1.BroadcastsInDim S128x256x768 (![0, 1, 2] : Fin 3 → Fin S128x256x768.rank)
  transposes_S128x256x16x64_S16x128x64x256_2_0_3_1 : S128x256x16x64.Transposes [2, 0, 3, 1] S16x128x64x256
  reducesTo_S16x128x64x256_S16x128x64_d3 : S16x128x64x256.ReducesTo [3] S16x128x64
  reducesTo_S16x128x64_S16x128_d2 : S16x128x64.ReducesTo [2] S16x128
  transposes_S128x768_S768x128_1_0 : S128x768.Transposes [1, 0] S768x128
  bcast_S_S16x128 : S_.BroadcastsInDim S16x128 (![] : Fin 0 → Fin S16x128.rank)
  bcast_S_S16 : S_.BroadcastsInDim S16 (![] : Fin 0 → Fin S16.rank)
  reducesTo_S16x128_S16_d1 : S16x128.ReducesTo [1] S16
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x1_S16x1_S16x2_d1 : Shape.Concatenates [S16x1, S16x1] S16x2 1
  reducesTo_S16_S_d0 : S16.ReducesTo [0] S_
  reducesTo_S16x128_S_d0_1 : S16x128.ReducesTo [0, 1] S_
  dot_S128x256x768_S16x64x768_S128x256x16x64_2_2_01_01_n_n_wf : DotDims.WF S128x256x768 S16x64x768 S128x256x16x64 [2] [2] [0, 1] [0, 1] [] []
  dot_S16x768_S768x128_S16x128_1_0_0_1_n_n_wf : DotDims.WF S16x768 S768x128 S16x128 [1] [0] [0] [1] [] []
  gather_S16x128_S16x2_S16_n_01_n_n_01_1_11_wf : GatherDims.WF S16x128 S16x2 S16 [] [0, 1] [] [0, 1] [] 1 ![1, 1]

variable [Facts₀]

def dot_S128x256x768_S16x64x768_S128x256x16x64_2_2_01_01_n_n : DotDims S128x256x768 S16x64x768 S128x256x16x64 where
  lhsContracting := [2]
  rhsContracting := [2]
  lhsNonContracting := [0, 1]
  rhsNonContracting := [0, 1]
  lhsBatch := []
  rhsBatch := []
  wf := dot_S128x256x768_S16x64x768_S128x256x16x64_2_2_01_01_n_n_wf
def dot_S16x768_S768x128_S16x128_1_0_0_1_n_n : DotDims S16x768 S768x128 S16x128 where
  lhsContracting := [1]
  rhsContracting := [0]
  lhsNonContracting := [0]
  rhsNonContracting := [1]
  lhsBatch := []
  rhsBatch := []
  wf := dot_S16x768_S768x128_S16x128_1_0_0_1_n_n_wf
def gather_S16x128_S16x2_S16_n_01_n_n_01_1_11 : GatherDims S16x128 S16x2 S16 where
  offsetDims := []
  collapsedSliceDims := [0, 1]
  operandBatchingDims := []
  startIndicesBatchingDims := []
  startIndexMap := [0, 1]
  indexVectorDim := 1
  sliceSizes := ![1, 1]
  wf := gather_S16x128_S16x2_S16_n_01_n_n_01_1_11_wf

class Facts : Prop extends Facts₀ where

variable [Facts]
-- ==== Proof.KernelFrame.lean ====
/-
  The frame of the program `Kernel`: it runs to the end, faults nowhere, and leaves its two argument arrays as it found them.

  The program is four host lines (the first token of every query and of every passage, sliced out and flattened), one
  region over sixteen grid points, and a long host tail (the dense scores, three cross-entropies and two divergences).
  At grid point `t` the region's body reads the whole query array (one block, the same at every point), passages
  `8 t … 8 t + 7` (the block of the second operand at `t`), and overwrites the `8 × 16` block `t` of the region's
  result with one value computed from the two blocks it read; it keeps nothing from point to point. So the proof data
  of the pipeline are: each input buffer holds its block, the output buffer holds that one value of the two blocks,
  and the class's plain invariant. The host tail allocates nothing, touches only unscoped buffers, and writes none of
  the three arrays the region stages, which is what lets the run continue through it after the region.
  Stated for any float instance, so that the same text is the frame at the word level and at the extended reals.
-/
import proofs.«111150_j50242527428853_1_alg».proof.Proof.Gen.Kernel.Launch
import proofs.«111150_j50242527428853_1_alg».proof.Proof.Gen.Kernel.Skeleton
import proofs.«111150_j50242527428853_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core `c` when the region is entered: the launch contents after the four host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host tail, stretch by stretch: the lines of @main between the calls of the outlined log-softmax, and each call's lines. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- No line of a stretch allocates. -/
local macro "no_alloc" : tactic => `(tactic| (simp only [List.Forall]; repeat' constructor))

theorem hostOps0_fresh : (hostOps0 : List (HloOp τ sig (Elt F))).Forall fun op => op.fresh = ∅ := by no_alloc
theorem hostOps1_fresh : (hostOps1 : List (HloOp τ sig (Elt F))).Forall fun op => op.fresh = ∅ := by no_alloc
theorem hostOps1_1_fresh : (hostOps1_1 : List (HloOp τ sig (Elt F))).Forall fun op => op.fresh = ∅ := by no_alloc
theorem hostOps1_2_fresh : (hostOps1_2 : List (HloOp τ sig (Elt F))).Forall fun op => op.fresh = ∅ := by no_alloc
theorem hostOps1_3_fresh : (hostOps1_3 : List (HloOp τ sig (Elt F))).Forall fun op => op.fresh = ∅ := by no_alloc
theorem hostOps1_4_fresh : (hostOps1_4 : List (HloOp τ sig (Elt F))).Forall fun op => op.fresh = ∅ := by no_alloc
theorem hostOps1_5_fresh : (hostOps1_5 : List (HloOp τ sig (Elt F))).Forall fun op => op.fresh = ∅ := by no_alloc
theorem hostOps1_6_fresh : (hostOps1_6 : List (HloOp τ sig (Elt F))).Forall fun op => op.fresh = ∅ := by no_alloc
theorem hostOps1_7_fresh : (hostOps1_7 : List (HloOp τ sig (Elt F))).Forall fun op => op.fresh = ∅ := by no_alloc
theorem hostOps1_8_fresh : (hostOps1_8 : List (HloOp τ sig (Elt F))).Forall fun op => op.fresh = ∅ := by no_alloc
theorem hostOps1_9_fresh : (hostOps1_9 : List (HloOp τ sig (Elt F))).Forall fun op => op.fresh = ∅ := by no_alloc
theorem hostOps1_10_fresh : (hostOps1_10 : List (HloOp τ sig (Elt F))).Forall fun op => op.fresh = ∅ := by no_alloc

/-- Every line of a stretch writes its own result buffer only, and that is none of the three staged arrays
    (the two arguments and the region's result). -/
local macro "writes_no_array" : tactic => `(tactic| (
  simp only [List.Forall, StableHlo.nullary_writes, StableHlo.unary_writes, StableHlo.binary_writes, StableHlo.ternary_writes,
    StableHlo.reshape_writes, Finset.mem_singleton]
  repeat' apply And.intro
  all_goals (intro w; fin_cases w <;> exact StableHlo.devRef_ne_of_ne (by decide))))

theorem hostOps1_keeps : (hostOps1 : List (HloOp τ sig (Elt F))).Forall fun op => ∀ w : Fin 3, Proc.devRef .tc (Pipeline.arrRef spec0 w) ∉ op.writes := by writes_no_array
theorem hostOps1_1_keeps : (hostOps1_1 : List (HloOp τ sig (Elt F))).Forall fun op => ∀ w : Fin 3, Proc.devRef .tc (Pipeline.arrRef spec0 w) ∉ op.writes := by writes_no_array
theorem hostOps1_2_keeps : (hostOps1_2 : List (HloOp τ sig (Elt F))).Forall fun op => ∀ w : Fin 3, Proc.devRef .tc (Pipeline.arrRef spec0 w) ∉ op.writes := by writes_no_array
theorem hostOps1_3_keeps : (hostOps1_3 : List (HloOp τ sig (Elt F))).Forall fun op => ∀ w : Fin 3, Proc.devRef .tc (Pipeline.arrRef spec0 w) ∉ op.writes := by writes_no_array
theorem hostOps1_4_keeps : (hostOps1_4 : List (HloOp τ sig (Elt F))).Forall fun op => ∀ w : Fin 3, Proc.devRef .tc (Pipeline.arrRef spec0 w) ∉ op.writes := by writes_no_array
theorem hostOps1_5_keeps : (hostOps1_5 : List (HloOp τ sig (Elt F))).Forall fun op => ∀ w : Fin 3, Proc.devRef .tc (Pipeline.arrRef spec0 w) ∉ op.writes := by writes_no_array
theorem hostOps1_6_keeps : (hostOps1_6 : List (HloOp τ sig (Elt F))).Forall fun op => ∀ w : Fin 3, Proc.devRef .tc (Pipeline.arrRef spec0 w) ∉ op.writes := by writes_no_array
theorem hostOps1_7_keeps : (hostOps1_7 : List (HloOp τ sig (Elt F))).Forall fun op => ∀ w : Fin 3, Proc.devRef .tc (Pipeline.arrRef spec0 w) ∉ op.writes := by writes_no_array
theorem hostOps1_8_keeps : (hostOps1_8 : List (HloOp τ sig (Elt F))).Forall fun op => ∀ w : Fin 3, Proc.devRef .tc (Pipeline.arrRef spec0 w) ∉ op.writes := by writes_no_array
theorem hostOps1_9_keeps : (hostOps1_9 : List (HloOp τ sig (Elt F))).Forall fun op => ∀ w : Fin 3, Proc.devRef .tc (Pipeline.arrRef spec0 w) ∉ op.writes := by writes_no_array
theorem hostOps1_10_keeps : (hostOps1_10 : List (HloOp τ sig (Elt F))).Forall fun op => ∀ w : Fin 3, Proc.devRef .tc (Pipeline.arrRef spec0 w) ∉ op.writes := by writes_no_array

/-- @main is the four host lines, the region, then the tail: it reduces to the region continued by the tail. -/
theorem main_around (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Membership in the tail is membership in one of its eleven stretches. -/
theorem tail_cases {P : List (HloOp τ sig (Elt F)) → Prop}
    (h0 : P hostOps1) (h1 : P hostOps1_1) (h2 : P hostOps1_2) (h3 : P hostOps1_3) (h4 : P hostOps1_4) (h5 : P hostOps1_5)
    (h6 : P hostOps1_6) (h7 : P hostOps1_7) (h8 : P hostOps1_8) (h9 : P hostOps1_9) (h10 : P hostOps1_10) :
    ∀ ops ∈ (tailOps : List (List (HloOp τ sig (Elt F)))), P ops := by
  intro ops hops
  simp only [tailOps, List.mem_cons, List.mem_nil_iff, or_false] at hops
  rcases hops with rfl | rfl | rfl | rfl | rfl | rfl | rfl | rfl | rfl | rfl | rfl
  exacts [h0, h1, h2, h3, h4, h5, h6, h7, h8, h9, h10]

/-- The tail's lines touch unscoped TensorCore buffers only: with nothing prefetched, those are exactly the buffers a
    line after the region may touch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have key : ∀ ops : List (HloOp τ sig (Elt F)), (ops.Forall fun op => op.bufs ⊆ StableHlo.tcRefs τ sig) →
      ∀ op ∈ ops, op.bufs ⊆ Pipeline.ucRefs τ sig :=
    fun ops h op hop => Pipeline.sub_ucRefs op ((List.forall_iff_forall_mem.mp h) op hop)
  exact tail_cases (key _ hostOps1_sub) (key _ hostOps1_1_sub) (key _ hostOps1_2_sub) (key _ hostOps1_3_sub) (key _ hostOps1_4_sub)
    (key _ hostOps1_5_sub) (key _ hostOps1_6_sub) (key _ hostOps1_7_sub) (key _ hostOps1_8_sub) (key _ hostOps1_9_sub) (key _ hostOps1_10_sub)

/-- They allocate nothing. -/
theorem tail_fresh : ∀ ops ∈ (tailOps : List (List (HloOp τ sig (Elt F)))), ∀ op ∈ ops, op.fresh = ∅ :=
  tail_cases (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh) (List.forall_iff_forall_mem.mp hostOps1_5_fresh)
    (List.forall_iff_forall_mem.mp hostOps1_6_fresh) (List.forall_iff_forall_mem.mp hostOps1_7_fresh)
    (List.forall_iff_forall_mem.mp hostOps1_8_fresh) (List.forall_iff_forall_mem.mp hostOps1_9_fresh)
    (List.forall_iff_forall_mem.mp hostOps1_10_fresh)

/-- And write none of the three staged arrays. -/
theorem tail_keeps : ∀ ops ∈ (tailOps : List (List (HloOp τ sig (Elt F)))), ∀ op ∈ ops,
    ∀ w, Proc.devRef .tc (Pipeline.arrRef spec0 w) ∉ op.writes :=
  tail_cases (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps) (List.forall_iff_forall_mem.mp hostOps1_5_keeps)
    (List.forall_iff_forall_mem.mp hostOps1_6_keeps) (List.forall_iff_forall_mem.mp hostOps1_7_keeps)
    (List.forall_iff_forall_mem.mp hostOps1_8_keeps) (List.forall_iff_forall_mem.mp hostOps1_9_keeps)
    (List.forall_iff_forall_mem.mp hostOps1_10_keeps)

/-- None of the four host lines before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds the whole query array at every point (it is fetched once, and its block never moves). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The passage window's current buffer holds passages `8 t … 8 t + 7` at point `t`. -/
theorem before_p_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rectQ : Rect S16x64x768 := Rect.unit (s := S16x64x768) ![0, 0, 0] S16x64x768.size Facts₀.inb_S16x64x768_S16x64x768_0_0_0
abbrev rectP : Rect S8x256x768 := Rect.unit (s := S8x256x768) ![0, 0, 0] S8x256x768.size Facts₀.inb_S8x256x768_S8x256x768_0_0_0
abbrev rectO : Rect S8x16 := Rect.unit (s := S8x16) ![0, 0] S8x16.size Facts₀.inb_S8x16_S8x16_0_0

/-- The output buffer after the body: its one store, covering the whole `8 × 16` block, of the body's value of the
    two blocks it loaded. -/
def blockOut (x0 : Vec F S16x64x768 .f32) (x1 : Vec F S8x256x768 .f32) : Vec F S8x16 .f32 :=
  View.canon [⟨rectO, k0_pay1 (View.ld x0 rectQ) (View.ld x1 rectP)⟩]

/-- The one store covers the buffer. -/
theorem blockOut_cover (p0 : Vec F S8x16 .f32) (y : S8x16.Idx) :
    ∃ pc ∈ ([⟨rectO, p0⟩] : List (View.Piece (Elt F) S8x16 .f32)), y ∈ pc.1.set :=
  View.cover_of_tiled [⟨rectO, p0⟩] S8x16.size (by rfl) y

/-! ## The body's triple -/

set_option maxHeartbeats 1000000 in
/-- The body on whole staging buffers — the inputs' at contents `x0`, `x1`, the output's at anything — returns with the
    inputs' as they were and the output's at `blockOut x0 x1`: two loads, a load of the output buffer whose value is not
    used, and one covering store. -/
theorem body_triple (c : Dev nD) (E : Set ℕ) (i : grid0.Coords)
    (a1 : Memref sig .tc .vmem S16x64x768 .f32) (h1 : a1.IsWhole) (a2 : Memref sig .tc .vmem S8x256x768 .f32) (h2 : a2.IsWhole)
    (a3 : Memref sig .tc .vmem S8x16 .f32) (h3 : a3.IsWhole)
    (x0 : Vec F S16x64x768 .f32) (x1 : Vec F S8x256x768 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (blockOut x0 x1)) -∗ K ⟨⟩))
      ⊢ wp frame (wpE (defs₀ (F := F)) Variants.none c none) E (cc0__mv_kernel i a1 h1 a2 h2 a3 h3) K := by
  simp only [cc0__mv_kernel_eq_skeleton]; unfold cc0__mv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _)

/-! ## The pipeline's proof data -/

/-- On core `c`: the arrays as the region finds them; after the body at point `t` each input buffer at its block and the
    output buffer at `blockOut` of the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_p (c : Dev nD) (t : Fin cfg0.N) : (dats m 0 c).after 1 t = iblk m c 1 t := by dsimp only [dats]
theorem after_o (c : Dev nD) (t : Fin cfg0.N) : (dats m 0 c).after 2 t = blockOut (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_p (c : Dev nD) (t : Fin cfg0.N) (d) : (dats m 0 c).before 1 t d = iblk m c 1 t :=
  before_p_of m (dats m 0 c) (A_eq m c 1) (after_p m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_p]
  rw [show (dats m 0 c).Φ t.succ = (dats m 0 c).Φ t.castSucc from rfl,
    show (dats m 0 c).owesAt () t.succ = (dats m 0 c).owesAt () t.castSucc from rfl,
    after_q, after_p, after_o]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at what the library
    computes from the proof data and every other unscoped buffer as the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := main_around m Variants.none) (hA := A_eq m) (hΦ := fun _ _ => rfl)

/-- The two argument arrays are input arrays of the pipeline: each ends at its contents at the region's entry, which are
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m 0 c).arrAt_in 0 rfl _).trans (A_eq m c 0)).trans (V_main_arg0 m c)),
     ((h c).1 1).trans ((((dats m 0 c).arrAt_in 1 rfl _).trans (A_eq m c 1)).trans (V_main_arg1 m c))⟩) (run_main m ρ)

end Cert.Kernel.Region

end
-- ==== Proof.KernelIdealFrame.lean ====
/-
  The frame of the program `KernelIdeal`: it runs to the end, faults nowhere, and leaves its two argument arrays as it found them.

  The program is four host lines (the first token of every query and of every passage, sliced out and flattened), one
  region over sixteen grid points, and a long host tail (the dense scores, three cross-entropies and two divergences).
  At grid point `t` the region's body reads the whole query array (one block, the same at every point), passages
  `8 t … 8 t + 7` (the block of the second operand at `t`), and overwrites the `8 × 16` block `t` of the region's
  result with one value computed from the two blocks it read; it keeps nothing from point to point. So the proof data
  of the pipeline are: each input buffer holds its block, the output buffer holds that one value of the two blocks,
  and the class's plain invariant. The host tail allocates nothing, touches only unscoped buffers, and writes none of
  the three arrays the region stages, which is what lets the run continue through it after the region.
  Stated for any float instance, so that the same text is the frame at the word level and at the extended reals.
-/
import proofs.«111150_j50242527428853_1_alg».proof.Proof.Gen.KernelIdeal.Launch
import proofs.«111150_j50242527428853_1_alg».proof.Proof.Gen.KernelIdeal.Skeleton
import proofs.«111150_j50242527428853_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core `c` when the region is entered: the launch contents after the four host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host tail, stretch by stretch: the lines of @main between the calls of the outlined log-softmax, and each call's lines. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- No line of a stretch allocates. -/
local macro "no_alloc" : tactic => `(tactic| (simp only [List.Forall]; repeat' constructor))

theorem hostOps0_fresh : (hostOps0 : List (HloOp τ sig (Elt F))).Forall fun op => op.fresh = ∅ := by no_alloc
theorem hostOps1_fresh : (hostOps1 : List (HloOp τ sig (Elt F))).Forall fun op => op.fresh = ∅ := by no_alloc
theorem hostOps1_1_fresh : (hostOps1_1 : List (HloOp τ sig (Elt F))).Forall fun op => op.fresh = ∅ := by no_alloc
theorem hostOps1_2_fresh : (hostOps1_2 : List (HloOp τ sig (Elt F))).Forall fun op => op.fresh = ∅ := by no_alloc
theorem hostOps1_3_fresh : (hostOps1_3 : List (HloOp τ sig (Elt F))).Forall fun op => op.fresh = ∅ := by no_alloc
theorem hostOps1_4_fresh : (hostOps1_4 : List (HloOp τ sig (Elt F))).Forall fun op => op.fresh = ∅ := by no_alloc
theorem hostOps1_5_fresh : (hostOps1_5 : List (HloOp τ sig (Elt F))).Forall fun op => op.fresh = ∅ := by no_alloc
theorem hostOps1_6_fresh : (hostOps1_6 : List (HloOp τ sig (Elt F))).Forall fun op => op.fresh = ∅ := by no_alloc
theorem hostOps1_7_fresh : (hostOps1_7 : List (HloOp τ sig (Elt F))).Forall fun op => op.fresh = ∅ := by no_alloc
theorem hostOps1_8_fresh : (hostOps1_8 : List (HloOp τ sig (Elt F))).Forall fun op => op.fresh = ∅ := by no_alloc
theorem hostOps1_9_fresh : (hostOps1_9 : List (HloOp τ sig (Elt F))).Forall fun op => op.fresh = ∅ := by no_alloc
theorem hostOps1_10_fresh : (hostOps1_10 : List (HloOp τ sig (Elt F))).Forall fun op => op.fresh = ∅ := by no_alloc

/-- Every line of a stretch writes its own result buffer only, and that is none of the three staged arrays
    (the two arguments and the region's result). -/
local macro "writes_no_array" : tactic => `(tactic| (
  simp only [List.Forall, StableHlo.nullary_writes, StableHlo.unary_writes, StableHlo.binary_writes, StableHlo.ternary_writes,
    StableHlo.reshape_writes, Finset.mem_singleton]
  repeat' apply And.intro
  all_goals (intro w; fin_cases w <;> exact StableHlo.devRef_ne_of_ne (by decide))))

theorem hostOps1_keeps : (hostOps1 : List (HloOp τ sig (Elt F))).Forall fun op => ∀ w : Fin 3, Proc.devRef .tc (Pipeline.arrRef spec0 w) ∉ op.writes := by writes_no_array
theorem hostOps1_1_keeps : (hostOps1_1 : List (HloOp τ sig (Elt F))).Forall fun op => ∀ w : Fin 3, Proc.devRef .tc (Pipeline.arrRef spec0 w) ∉ op.writes := by writes_no_array
theorem hostOps1_2_keeps : (hostOps1_2 : List (HloOp τ sig (Elt F))).Forall fun op => ∀ w : Fin 3, Proc.devRef .tc (Pipeline.arrRef spec0 w) ∉ op.writes := by writes_no_array
theorem hostOps1_3_keeps : (hostOps1_3 : List (HloOp τ sig (Elt F))).Forall fun op => ∀ w : Fin 3, Proc.devRef .tc (Pipeline.arrRef spec0 w) ∉ op.writes := by writes_no_array
theorem hostOps1_4_keeps : (hostOps1_4 : List (HloOp τ sig (Elt F))).Forall fun op => ∀ w : Fin 3, Proc.devRef .tc (Pipeline.arrRef spec0 w) ∉ op.writes := by writes_no_array
theorem hostOps1_5_keeps : (hostOps1_5 : List (HloOp τ sig (Elt F))).Forall fun op => ∀ w : Fin 3, Proc.devRef .tc (Pipeline.arrRef spec0 w) ∉ op.writes := by writes_no_array
theorem hostOps1_6_keeps : (hostOps1_6 : List (HloOp τ sig (Elt F))).Forall fun op => ∀ w : Fin 3, Proc.devRef .tc (Pipeline.arrRef spec0 w) ∉ op.writes := by writes_no_array
theorem hostOps1_7_keeps : (hostOps1_7 : List (HloOp τ sig (Elt F))).Forall fun op => ∀ w : Fin 3, Proc.devRef .tc (Pipeline.arrRef spec0 w) ∉ op.writes := by writes_no_array
theorem hostOps1_8_keeps : (hostOps1_8 : List (HloOp τ sig (Elt F))).Forall fun op => ∀ w : Fin 3, Proc.devRef .tc (Pipeline.arrRef spec0 w) ∉ op.writes := by writes_no_array
theorem hostOps1_9_keeps : (hostOps1_9 : List (HloOp τ sig (Elt F))).Forall fun op => ∀ w : Fin 3, Proc.devRef .tc (Pipeline.arrRef spec0 w) ∉ op.writes := by writes_no_array
theorem hostOps1_10_keeps : (hostOps1_10 : List (HloOp τ sig (Elt F))).Forall fun op => ∀ w : Fin 3, Proc.devRef .tc (Pipeline.arrRef spec0 w) ∉ op.writes := by writes_no_array

/-- @main is the four host lines, the region, then the tail: it reduces to the region continued by the tail. -/
theorem main_around (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Membership in the tail is membership in one of its eleven stretches. -/
theorem tail_cases {P : List (HloOp τ sig (Elt F)) → Prop}
    (h0 : P hostOps1) (h1 : P hostOps1_1) (h2 : P hostOps1_2) (h3 : P hostOps1_3) (h4 : P hostOps1_4) (h5 : P hostOps1_5)
    (h6 : P hostOps1_6) (h7 : P hostOps1_7) (h8 : P hostOps1_8) (h9 : P hostOps1_9) (h10 : P hostOps1_10) :
    ∀ ops ∈ (tailOps : List (List (HloOp τ sig (Elt F)))), P ops := by
  intro ops hops
  simp only [tailOps, List.mem_cons, List.mem_nil_iff, or_false] at hops
  rcases hops with rfl | rfl | rfl | rfl | rfl | rfl | rfl | rfl | rfl | rfl | rfl
  exacts [h0, h1, h2, h3, h4, h5, h6, h7, h8, h9, h10]

/-- The tail's lines touch unscoped TensorCore buffers only: with nothing prefetched, those are exactly the buffers a
    line after the region may touch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have key : ∀ ops : List (HloOp τ sig (Elt F)), (ops.Forall fun op => op.bufs ⊆ StableHlo.tcRefs τ sig) →
      ∀ op ∈ ops, op.bufs ⊆ Pipeline.ucRefs τ sig :=
    fun ops h op hop => Pipeline.sub_ucRefs op ((List.forall_iff_forall_mem.mp h) op hop)
  exact tail_cases (key _ hostOps1_sub) (key _ hostOps1_1_sub) (key _ hostOps1_2_sub) (key _ hostOps1_3_sub) (key _ hostOps1_4_sub)
    (key _ hostOps1_5_sub) (key _ hostOps1_6_sub) (key _ hostOps1_7_sub) (key _ hostOps1_8_sub) (key _ hostOps1_9_sub) (key _ hostOps1_10_sub)

/-- They allocate nothing. -/
theorem tail_fresh : ∀ ops ∈ (tailOps : List (List (HloOp τ sig (Elt F)))), ∀ op ∈ ops, op.fresh = ∅ :=
  tail_cases (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh) (List.forall_iff_forall_mem.mp hostOps1_5_fresh)
    (List.forall_iff_forall_mem.mp hostOps1_6_fresh) (List.forall_iff_forall_mem.mp hostOps1_7_fresh)
    (List.forall_iff_forall_mem.mp hostOps1_8_fresh) (List.forall_iff_forall_mem.mp hostOps1_9_fresh)
    (List.forall_iff_forall_mem.mp hostOps1_10_fresh)

/-- And write none of the three staged arrays. -/
theorem tail_keeps : ∀ ops ∈ (tailOps : List (List (HloOp τ sig (Elt F)))), ∀ op ∈ ops,
    ∀ w, Proc.devRef .tc (Pipeline.arrRef spec0 w) ∉ op.writes :=
  tail_cases (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps) (List.forall_iff_forall_mem.mp hostOps1_5_keeps)
    (List.forall_iff_forall_mem.mp hostOps1_6_keeps) (List.forall_iff_forall_mem.mp hostOps1_7_keeps)
    (List.forall_iff_forall_mem.mp hostOps1_8_keeps) (List.forall_iff_forall_mem.mp hostOps1_9_keeps)
    (List.forall_iff_forall_mem.mp hostOps1_10_keeps)

/-- None of the four host lines before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds the whole query array at every point (it is fetched once, and its block never moves). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The passage window's current buffer holds passages `8 t … 8 t + 7` at point `t`. -/
theorem before_p_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rectQ : Rect S16x64x768 := Rect.unit (s := S16x64x768) ![0, 0, 0] S16x64x768.size Facts₀.inb_S16x64x768_S16x64x768_0_0_0
abbrev rectP : Rect S8x256x768 := Rect.unit (s := S8x256x768) ![0, 0, 0] S8x256x768.size Facts₀.inb_S8x256x768_S8x256x768_0_0_0
abbrev rectO : Rect S8x16 := Rect.unit (s := S8x16) ![0, 0] S8x16.size Facts₀.inb_S8x16_S8x16_0_0

/-- The output buffer after the body: its one store, covering the whole `8 × 16` block, of the body's value of the
    two blocks it loaded. -/
def blockOut (x0 : Vec F S16x64x768 .f32) (x1 : Vec F S8x256x768 .f32) : Vec F S8x16 .f32 :=
  View.canon [⟨rectO, k0_pay1 (View.ld x0 rectQ) (View.ld x1 rectP)⟩]

/-- The one store covers the buffer. -/
theorem blockOut_cover (p0 : Vec F S8x16 .f32) (y : S8x16.Idx) :
    ∃ pc ∈ ([⟨rectO, p0⟩] : List (View.Piece (Elt F) S8x16 .f32)), y ∈ pc.1.set :=
  View.cover_of_tiled [⟨rectO, p0⟩] S8x16.size (by rfl) y

/-! ## The body's triple -/

set_option maxHeartbeats 1000000 in
/-- The body on whole staging buffers — the inputs' at contents `x0`, `x1`, the output's at anything — returns with the
    inputs' as they were and the output's at `blockOut x0 x1`: two loads, a load of the output buffer whose value is not
    used, and one covering store. -/
theorem body_triple (c : Dev nD) (E : Set ℕ) (i : grid0.Coords)
    (a1 : Memref sig .tc .vmem S16x64x768 .f32) (h1 : a1.IsWhole) (a2 : Memref sig .tc .vmem S8x256x768 .f32) (h2 : a2.IsWhole)
    (a3 : Memref sig .tc .vmem S8x16 .f32) (h3 : a3.IsWhole)
    (x0 : Vec F S16x64x768 .f32) (x1 : Vec F S8x256x768 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (blockOut x0 x1)) -∗ K ⟨⟩))
      ⊢ wp frame (wpE (defs₀ (F := F)) Variants.none c none) E (cc0__mv_kernel i a1 h1 a2 h2 a3 h3) K := by
  simp only [cc0__mv_kernel_eq_skeleton]; unfold cc0__mv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _)

/-! ## The pipeline's proof data -/

/-- On core `c`: the arrays as the region finds them; after the body at point `t` each input buffer at its block and the
    output buffer at `blockOut` of the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_p (c : Dev nD) (t : Fin cfg0.N) : (dats m 0 c).after 1 t = iblk m c 1 t := by dsimp only [dats]
theorem after_o (c : Dev nD) (t : Fin cfg0.N) : (dats m 0 c).after 2 t = blockOut (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_p (c : Dev nD) (t : Fin cfg0.N) (d) : (dats m 0 c).before 1 t d = iblk m c 1 t :=
  before_p_of m (dats m 0 c) (A_eq m c 1) (after_p m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_p]
  rw [show (dats m 0 c).Φ t.succ = (dats m 0 c).Φ t.castSucc from rfl,
    show (dats m 0 c).owesAt () t.succ = (dats m 0 c).owesAt () t.castSucc from rfl,
    after_q, after_p, after_o]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at what the library
    computes from the proof data and every other unscoped buffer as the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := main_around m Variants.none) (hA := A_eq m) (hΦ := fun _ _ => rfl)

/-- The two argument arrays are input arrays of the pipeline: each ends at its contents at the region's entry, which are
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m 0 c).arrAt_in 0 rfl _).trans (A_eq m c 0)).trans (V_main_arg0 m c)),
     ((h c).1 1).trans ((((dats m 0 c).arrAt_in 1 rfl _).trans (A_eq m c 1)).trans (V_main_arg1 m c))⟩) (run_main m ρ)

end Cert.KernelIdeal.Region

end
-- ==== Proof.Loss.lean ====
/-
  The host tail both programs share, as one function.

  From the pooled representations `qr` (16 × 768), `pr` (128 × 768) and the 16 × 128 multivector score matrix `mv`:
  the dense scores `qr · prᵀ` (divided by the temperature 1), the interpolated scores `1 · dense + 0.3 · mv`, the
  cross-entropy of each score matrix against the targets `8 r` (row `r`'s own passage group), the two
  divergences of the dense and the multivector log-probabilities from the interpolated ones, and the loss
  `((0.3 (ce dense + kl mv + ce inter)) + 0.2 (kl dense + kl mv)) · 0.5`.
  Each operation is spelt as the programs spell it, so that a program's composed term of its own buffers is this
  function of three of them by unfolding; nothing here is ever computed.
-/
import proofs.«111150_j50242527428853_1_alg».proof.Proof.Gen.KernelIdeal

noncomputable section

namespace Cert.KernelIdeal.Loss

open Cert.KernelIdeal Cert.KernelIdeal.Facts₀ Idealize.ShloMosaic

variable {F : FTy → Type} [FloatOps F]

/-- A 16 × 128 score matrix. -/
abbrev Mat (F : FTy → Type) [FloatOps F] : Type := (⟨S16x128, .f32⟩ : BufTy).Contents (Elt F)
/-- A scalar. -/
abbrev Sc (F : FTy → Type) [FloatOps F] : Type := (⟨S_, .f32⟩ : BufTy).Contents (Elt F)

/-- A column of 16 reals spread along the rows of a 16 × 128 matrix. -/
def spread (v : (⟨S16, .f32⟩ : BufTy).Contents (Elt F)) : Mat F :=
  broadcastInDim S16x128 ![0, 1] bcast_S16x1_S16x128_0_1 (broadcastInDim S16x1 ![0] bcast_S16_S16x1_0 v)

/-- Row-wise log-softmax: `x - max_row x - log Σ_row exp (x - max_row x)`. -/
def logSoftmax (x : Mat F) : Mat F :=
  let shifted : Mat F := subf x (broadcastInDim S16x128 ![0, 1] bcast_S16x1_S16x128_0_1 (broadcastInDim S16x1 ![0] bcast_S16_S16x1_0
    (maximumf (broadcastInDim S16 ![] bcast_S_S16 (constant S_ .f32 0xFF800000#32))
      (Host.reduce FloatOps.maximumf x (constant S_ .f32 0xFF800000#32) reducesTo_S16x128_S16_d1 h_S_))))
  subf shifted (broadcastInDim S16x128 ![0, 1] bcast_S16x1_S16x128_0_1 (Host.log (broadcastInDim S16x1 ![0] bcast_S16_S16x1_0
    (Host.reduceAdd (Host.exp shifted) (constant S_ .f32 0x00000000#32) reducesTo_S16x128_S16_d1 h_S_))))

/-- The targets `8 r`, `r < 16`. -/
def target : (⟨S16, .i32⟩ : BufTy).Contents (Elt F) :=
  muli (iotaInDim S16 32 0) (broadcastInDim S16 ![] bcast_S_S16 (constantI S_ 32 8#32))

/-- The 16 index pairs `(r, 8 r)` the cross-entropy reads, each coordinate wrapped if negative. -/
def targetPairs : (⟨S16x2, .i32⟩ : BufTy).Contents (Elt F) :=
  concatenate S16x2 1
    [⟨S16x1, broadcastInDim S16x1 ![0] bcast_S16_S16x1_0
        (select (cmpi .slt (iotaInDim S16 32 0) (broadcastInDim S16 ![] bcast_S_S16 (constantI S_ 32 0#32)))
          (addi (iotaInDim S16 32 0) (broadcastInDim S16 ![] bcast_S_S16 (constantI S_ 32 16#32))) (iotaInDim S16 32 0))⟩,
     ⟨S16x1, broadcastInDim S16x1 ![0] bcast_S16_S16x1_0
        (select (cmpi .slt (target (F := F)) (broadcastInDim S16 ![] bcast_S_S16 (constantI S_ 32 0#32)))
          (addi (target (F := F)) (broadcastInDim S16 ![] bcast_S_S16 (constantI S_ 32 128#32))) (target (F := F)))⟩]
    concatenates_S16x1_S16x1_S16x2_d1

/-- Mean cross-entropy of log-probabilities `ls` at the targets: `-(Σ_r ls[r, 8 r]) / 16`. -/
def ce (ls : Mat F) : Sc F :=
  Host.negf (Host.divf (Host.reduceAdd (Host.gather gather_S16x128_S16x2_S16_n_01_n_n_01_1_11 ls (targetPairs (F := F)))
    (constant S_ .f32 0x00000000#32) reducesTo_S16_S_d0 h_S_) (constant S_ .f32 0x41800000#32))

/-- Batch-mean divergence of log-probabilities `inp` from log-probabilities `t`: `(Σ exp t · (t - inp)) / 16`. -/
def kl (t inp : Mat F) : Sc F :=
  Host.divf (Host.reduceAdd (mulf (Host.exp t) (subf t inp)) (constant S_ .f32 0x00000000#32) reducesTo_S16x128_S_d0_1 h_S_)
    (constant S_ .f32 0x41800000#32)

/-- The dense scores. -/
def dense (qr : (⟨S16x768, .f32⟩ : BufTy).Contents (Elt F)) (pr : (⟨S128x768, .f32⟩ : BufTy).Contents (Elt F)) : Mat F :=
  Host.divf (Host.dotGeneral dot_S16x768_S768x128_S16x128_1_0_0_1_n_n none qr (transpose S768x128 [1, 0] pr transposes_S128x768_S768x128_1_0))
    (broadcastInDim S16x128 ![] bcast_S_S16x128 (constant S_ .f32 0x3F800000#32))

/-- The loss. -/
def loss (qr : (⟨S16x768, .f32⟩ : BufTy).Contents (Elt F)) (pr : (⟨S128x768, .f32⟩ : BufTy).Contents (Elt F)) (mv : Mat F) : Sc F :=
  let mvs : Mat F := Host.divf mv (broadcastInDim S16x128 ![] bcast_S_S16x128 (constant S_ .f32 0x3F800000#32))
  let inter : Mat F := addf (mulf (broadcastInDim S16x128 ![] bcast_S_S16x128 (constant S_ .f32 0x3F800000#32)) (dense qr pr))
    (mulf (broadcastInDim S16x128 ![] bcast_S_S16x128 (constant S_ .f32 0x3E99999A#32)) mvs)
  let klMv : Sc F := kl (logSoftmax inter) (logSoftmax mvs)
  mulf (addf
      (mulf (constant S_ .f32 0x3E99999A#32)
        (addf (addf (mulf (ce (logSoftmax (dense qr pr))) (constant S_ .f32 0x3F800000#32)) (mulf klMv (constant S_ .f32 0x3F800000#32)))
          (ce (logSoftmax inter))))
      (mulf (constant S_ .f32 0x3E4CCCCD#32)
        (addf (mulf (kl (logSoftmax inter) (logSoftmax (dense qr pr))) (constant S_ .f32 0x3F800000#32)) (mulf klMv (constant S_ .f32 0x3F800000#32)))))
    (constant S_ .f32 0x3F000000#32)

end Cert.KernelIdeal.Loss

end
-- ==== Proof.KernelLoss.lean ====
/-
  What the idealized kernel program returns: the shared loss of the pooled queries and passages as the region found them
  (the four host lines before the region wrote them) and of the transposed array the region left.

  The frame run ends with every unscoped buffer that is no staged array as the host tail leaves it, started from the
  region's exit contents: the staged arrays at what the pipeline computed, everything else as at the region's entry.
  Reading the tail's last buffer through its two hundred and fourteen lines gives one term of three of those contents —
  the pooled queries, the pooled passages and the region's result — and that term is the loss, line for line.
-/
import proofs.«111150_j50242527428853_1_alg».proof.Proof.KernelIdealFrame
import proofs.«111150_j50242527428853_1_alg».proof.Proof.Loss
import Idealize.ShloMosaic.Lib.StableHlo.Run

noncomputable section

namespace Cert.KernelIdeal.KValue

open Cert.KernelIdeal Cert.KernelIdeal.Gen Cert.KernelIdeal.Facts₀ Cert.KernelIdeal.Region
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The region's result array on core `c` after the last grid point, as the pipeline's proof data compute it. -/
abbrev regionOut (c : Dev nD) : (⟨S128x16, .f32⟩ : BufTy).Contents (Elt F) := (dats m 0 c).arrAt 2 cfg0.N

set_option maxRecDepth 16384 in
set_option maxHeartbeats 200000000 in
/-- The tail's last buffer, read through the tail from the region's exit contents. -/
theorem tail_result (c : Dev nD) :
    Pipeline.afterTail₀ cfgs (dats m) 0 (V0 m) tailOps c main_v100
      = Loss.loss (F := F) (V m c main_v1) (V m c main_v3)
          (transpose S16x128 [1, 0] (regionOut m c) Facts₀.transposes_S128x16_S16x128_1_0) := by
  unfold Pipeline.afterTail₀
  have e1 : Pipeline.withArrays (cfgs 0).spec c (V0 m c) (fun w => (dats m 0 c).arrAt w (cfgs 0).N) (Proc.devRef .tc main_v1) = V m c main_v1 :=
    Pipeline.withArrays_of_ne _ c (V0 m c) _ main_v1 (by exact (by decide : ∀ w, Pipeline.arrRef spec0 w ≠ main_v1))
  have e3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have e4 : Pipeline.withArrays (cfgs 0).spec c (V0 m c) (fun w => (dats m 0 c).arrAt w (cfgs 0).N) (Proc.devRef .tc main_v4) = regionOut m c :=
    Pipeline.withArrays_arr spec0 launch0.win.arr_inj c (V0 m c) _ 2
  generalize Pipeline.withArrays (cfgs 0).spec c (V0 m c) (fun w => (dats m 0 c).arrAt w (cfgs 0).N) = W at e1 e3 e4 ⊢
  generalize V m c main_v1 = qr at e1 ⊢
  generalize V m c main_v3 = pr at e3 ⊢
  generalize regionOut m c = out at e4 ⊢
  simp only [tailOps, hostOps1, hostOps1_1, hostOps1_2, hostOps1_3, hostOps1_4, hostOps1_5, hostOps1_6, hostOps1_7, hostOps1_8,
    hostOps1_9, hostOps1_10, List.flatten_cons, List.flatten_nil, List.append_nil, List.cons_append, List.nil_append]
  after_results_simp
  rw [e1, e3, e4]
  rfl

/-- The idealized kernel program runs, ends with its result at the loss of the pooled rows and the transposed region
    output, and leaves its arguments unchanged. -/
theorem run_loss : θ_run defs (onTc (τ := τ) (main (F := F))) ⟨m, fun _ => 0, ρ⟩ (fun r => ∀ c : Dev nD,
      r.2.mem ((c.tc : Thread nD τ).loc main_v100)
        = Loss.loss (F := F) (V m c main_v1) (V m c main_v3) (transpose S16x128 [1, 0] (regionOut m c) Facts₀.transposes_S128x16_S16x128_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v100 (Pipeline.mem_restRefs_of main_v100 (by decide) (by decide))).trans (tail_result m c),
     ((h c).1 0).trans ((((dats m 0 c).arrAt_in 0 rfl _).trans (A_eq m c 0)).trans (V_main_arg0 m c)),
     ((h c).1 1).trans ((((dats m 0 c).arrAt_in 1 rfl _).trans (A_eq m c 1)).trans (V_main_arg1 m c))⟩) (run_main m ρ)

end Cert.KernelIdeal.KValue

end
-- ==== Proof.Spec.lean ====
/-
  The multivector score, as mathematics.

  A token row `a : Fin 768 → EReal` has clamped length `len a = max (√(Σ_d a_d²)) ε` (`ε` the single-precision word of
  `1e-12`, never evaluated), and `unit a = a / len a`. Two rows have similarity `sim a b = Σ_d unit a d · unit b d`. A query
  `Q` (rows `i`) and a passage `P` (rows `j`) score `max_i max_j sim (Q i) (P j)`, each maximum a fold of `max` from `-∞`
  (the single-precision word `0xFF800000`). Everything is on the extended reals; no law used later needs finiteness.
-/
import Idealize.ShloMosaic.PureOps.Ideal
import Idealize.ShloMosaic.Lib.ValueIdx

noncomputable section

namespace Cert.MaxSim

open Idealize.ShloMosaic Idealize.ShloMosaic.ValueIdx

/-- The clamp `ε`. -/
abbrev eps : EReal := Ideal.ofBits .f32 0x2B8CBCCC#32
/-- The folds' starting value `-∞`. -/
abbrev negInf : EReal := Ideal.ofBits .f32 0xFF800000#32

/-- Clamped Euclidean length of a row. -/
def len (row : Fin 768 → EReal) : EReal := max (Ideal.sqrt (∑ d : Fin 768, row d * row d)) eps
/-- The row divided by its clamped length. -/
def unit (row : Fin 768 → EReal) (d : Fin 768) : EReal := Ideal.div (row d) (len row)
/-- Similarity of two rows. -/
def sim (a b : Fin 768 → EReal) : EReal := ∑ d : Fin 768, unit a d * unit b d
/-- The max-sim score of a query's rows against a passage's rows. -/
def score {Lq Lp : ℕ} (Q : Fin Lq → Fin 768 → EReal) (P : Fin Lp → Fin 768 → EReal) : EReal :=
  (Finset.univ : Finset (Fin Lq)).fold max negInf fun i =>
    (Finset.univ : Finset (Fin Lp)).fold max negInf fun j => sim (Q i) (P j)

/-- The score of query `q` of a `[nq, Lq, 768]` array against passage `p` of a `[np, Lp, 768]` array. -/
def scoreAt {nq Lq np Lp : ℕ} (x0 : (⟨3, ![nq, Lq, 768]⟩ : Shape).Idx → EReal) (x1 : (⟨3, ![np, Lp, 768]⟩ : Shape).Idx → EReal)
    (q : Fin nq) (p : Fin np) : EReal :=
  score (fun i d => x0 (ix3 q i d)) (fun j d => x1 (ix3 p j d))

end Cert.MaxSim

end
-- ==== Proof.LibNormedRows.lean ====
/-
  Rows normalized by their clamped length, read at an index.

  For an array `x` of shape `[A, B, 768]` the vector program
  `x / broadcast (max (√ (reshape (Σ_d x · x))) ε)`, flattened to `[R, 768]` with `R = A · B`, holds at `(a · B + b, d)` the
  row `x[a, b, ·]` divided by its clamped length, at `d`.
-/
import proofs.«111150_j50242527428853_1_alg».proof.Proof.Spec
import Idealize.ShloMosaic.PureOps.Ideal.Laws
import Idealize.ShloMosaic.Lib.Pipeline.Value

noncomputable section

namespace Cert.MaxSim

open Idealize.ShloMosaic Idealize.ShloMosaic.ValueIdx

/-- The lane sum of squares, kept as a unit axis, square-rooted and clamped, read at `(a, b, 0)`: the clamped length of row `(a, b)`. -/
theorem clampedLen_apply {A B : ℕ} (x : FVec Ideal ⟨3, ![A, B, 768]⟩ .f32)
    (hr : Shape.Reduces ⟨3, ![A, B, 768]⟩ [2] ⟨2, ![A, B]⟩) (hφ : FKind.Formats .f32)
    (hacc : (0x00000000#32 : BitVec 32) = FKind.add.neutral .f32 hφ)
    (hs : (⟨2, ![A, B]⟩ : Shape).ShapeCasts ⟨3, ![A, B, 1]⟩) (a : Fin A) (b : Fin B) (z : Fin 1) :
    (maximumf (sqrt (shapeCast ⟨3, ![A, B, 1]⟩ (multiReduction .add [2] ⟨2, ![A, B]⟩ (mulf x x) 0x00000000#32 hr hφ hacc) hs))
        (broadcast ⟨3, ![A, B, 1]⟩ (Scalar.ofBits .f32 0x2B8CBCCC#32)) : FVec Ideal ⟨3, ![A, B, 1]⟩ .f32) (ix3 a b z)
      = len (fun d => x (ix3 a b d)) := by
  show max (Ideal.sqrt (shapeCast ⟨3, ![A, B, 1]⟩ (multiReduction .add [2] ⟨2, ![A, B]⟩ (mulf x x) 0x00000000#32 hr hφ hacc) hs (ix3 a b z))) eps = _
  rw [shapeCast_apply _ hs (ix3 a b z) (ix2 a b) (by
    rw [Shape.rowMajor_val_three, Shape.rowMajor_val_two]
    show a.val * B + b.val = (a.val * B + b.val) * 1 + z.val
    have := z.isLt; omega)]
  rw [Ideal.multiReduction_add_single]
  unfold len
  refine congrArg (fun s => max (Ideal.sqrt s) eps) (Finset.sum_congr rfl fun d _ => ?_)
  have e : hr.lift (ix2 a b) d = ix3 a b d := funext fun c => Fin.ext (by
    match c with
    | ⟨0, _⟩ => rfl
    | ⟨1, _⟩ => rfl
    | ⟨2, _⟩ => rfl)
  rw [e]
  rfl

/-- The normalized rows, flattened, at `(a · B + b, d)`. -/
theorem normedFlat_apply {A B R : ℕ} (x : FVec Ideal ⟨3, ![A, B, 768]⟩ .f32)
    (hr : Shape.Reduces ⟨3, ![A, B, 768]⟩ [2] ⟨2, ![A, B]⟩) (hφ : FKind.Formats .f32)
    (hacc : (0x00000000#32 : BitVec 32) = FKind.add.neutral .f32 hφ)
    (hs : (⟨2, ![A, B]⟩ : Shape).ShapeCasts ⟨3, ![A, B, 1]⟩) (hb : (⟨3, ![A, B, 1]⟩ : Shape).Broadcasts ⟨3, ![A, B, 768]⟩)
    (hc : (⟨3, ![A, B, 768]⟩ : Shape).ShapeCasts ⟨2, ![R, 768]⟩)
    (a : Fin A) (b : Fin B) (r : Fin R) (hrow : r.val = a.val * B + b.val) (d : Fin 768) :
    shapeCast ⟨2, ![R, 768]⟩ (divf x (broadcastTo ⟨3, ![A, B, 768]⟩
        (maximumf (sqrt (shapeCast ⟨3, ![A, B, 1]⟩ (multiReduction .add [2] ⟨2, ![A, B]⟩ (mulf x x) 0x00000000#32 hr hφ hacc) hs))
          (broadcast ⟨3, ![A, B, 1]⟩ (Scalar.ofBits .f32 0x2B8CBCCC#32))) hb)) hc (ix2 r d)
      = unit (fun d' => x (ix3 a b d')) d := by
  rw [shapeCast_apply _ hc (ix2 r d) (ix3 a b d) (by
    rw [Shape.rowMajor_val_three, Shape.rowMajor_val_two]
    show (a.val * B + b.val) * 768 + d.val = r.val * 768 + d.val
    rw [hrow])]
  show Ideal.div (x (ix3 a b d)) (broadcastTo ⟨3, ![A, B, 768]⟩ _ hb (ix3 a b d)) = _
  rw [broadcastTo_apply _ hb (ix3 a b d) (ix3 a b (0 : Fin 1)) (fun c => by
    match c with
    | ⟨0, _⟩ => show a.val = if A = 1 then 0 else a.val; split <;> [(have := a.isLt; omega); rfl]
    | ⟨1, _⟩ => show b.val = if B = 1 then 0 else b.val; split <;> [(have := b.isLt; omega); rfl]
    | ⟨2, _⟩ => rfl)]
  rw [clampedLen_apply x hr hφ hacc hs a b 0]
  rfl

end Cert.MaxSim

end
-- ==== Proof.KernelBlock.lean ====
/-
  The value the region's body stores at a grid point, index by index.

  From the query block `v0` (all 16 queries, 64 rows each) and a passage block `v1` (8 passages, 256 rows each) the body
  normalizes every row by its clamped length, flattens both blocks to matrices of rows (query row `q·64 + i`, passage row
  `p·256 + j`), multiplies them contracting the 768 lanes, views the 1024 × 2048 product as `[q, i, p, j]`, takes the
  maximum over `j`, then over `i`, and stores the result transposed, at `(p, q)`. So the stored block holds, at `(p, q)`,
  the max-sim score of query `q` against the block's passage `p`.
-/
import proofs.«111150_j50242527428853_1_alg».proof.Proof.Gen.KernelIdeal.Skeleton
import proofs.«111150_j50242527428853_1_alg».proof.Proof.LibNormedRows
import Idealize.ShloMosaic.Lib.ValueLayout

noncomputable section

namespace Cert.KernelIdeal.KValue

open Cert.KernelIdeal Cert.KernelIdeal.Gen Idealize.ShloMosaic Idealize.ShloMosaic.ValueIdx Cert.MaxSim

/-- The query block's rows, normalized and flattened to `[1024, 768]`. -/
def qFlat (v0 : Vec Ideal S16x64x768 .f32) : FVec Ideal S1024x768 .f32 :=
  shapeCast S1024x768 (divf v0 (broadcastTo S16x64x768
    (maximumf (sqrt (shapeCast S16x64x1 (multiReduction .add [2] S16x64 (mulf v0 v0) 0x00000000#32 Facts₀.reduces_S16x64x768_S16x64 (.inl rfl) rfl) Facts₀.shapeCasts_S16x64_S16x64x1))
      (broadcast S16x64x1 (Scalar.ofBits .f32 0x2B8CBCCC#32))) Facts₀.broadcasts_S16x64x1_S16x64x768)) Facts₀.shapeCasts_S16x64x768_S1024x768

/-- The passage block's rows, normalized and flattened to `[2048, 768]`. -/
def pFlat (v1 : Vec Ideal S8x256x768 .f32) : FVec Ideal S2048x768 .f32 :=
  shapeCast S2048x768 (divf v1 (broadcastTo S8x256x768
    (maximumf (sqrt (shapeCast S8x256x1 (multiReduction .add [2] S8x256 (mulf v1 v1) 0x00000000#32 Facts₀.reduces_S8x256x768_S8x256 (.inl rfl) rfl) Facts₀.shapeCasts_S8x256_S8x256x1))
      (broadcast S8x256x1 (Scalar.ofBits .f32 0x2B8CBCCC#32))) Facts₀.broadcasts_S8x256x1_S8x256x768)) Facts₀.shapeCasts_S8x256x768_S2048x768

/-- All similarities of the block: query rows against passage rows. -/
def simBlock (v0 : Vec Ideal S16x64x768 .f32) (v1 : Vec Ideal S8x256x768 .f32) : FVec Ideal S1024x2048 .f32 :=
  matmul dot_S1024x768_S2048x768_S1024x2048_1_1_0_0_n_n none (truncf .bf16 (qFlat v0) Facts₀.bitsLt_bf16_f32) (truncf .bf16 (pFlat v1) Facts₀.bitsLt_bf16_f32)
    (constant S1024x2048 .f32 0x00000000#32)

/-- The body's stored value is the two maxima of the similarities, transposed. -/
theorem pay_eq (v0 : Vec Ideal S16x64x768 .f32) (v1 : Vec Ideal S8x256x768 .f32) :
    k0_pay1 (F := Ideal) v0 v1
      = transpose S8x16 [1, 0]
          (multiReduction .maximumf [2] S16x8
            (transpose S16x8x64 [0, 2, 1]
              (multiReduction .maximumf [3] S16x64x8 (shapeCast S16x64x8x256 (simBlock v0 v1) Facts₀.shapeCasts_S1024x2048_S16x64x8x256)
                0xFF800000#32 Facts₀.reduces_S16x64x8x256_S16x64x8 (.inl rfl) rfl)
              Facts₀.transposes_S16x64x8_p0_2_1_S16x8x64)
            0xFF800000#32 Facts₀.reduces_S16x8x64_S16x8 (.inl rfl) rfl)
          Facts₀.transposes_S16x8_p1_0_S8x16 := rfl

/-- A flattened normalized query row. -/
theorem qFlat_apply (v0 : Vec Ideal S16x64x768 .f32) (q : Fin 16) (i : Fin 64) (r : Fin 1024) (hr : r.val = q.val * 64 + i.val) (d : Fin 768) :
    qFlat v0 (ix2 r d) = unit (fun d' => v0 (ix3 q i d')) d :=
  normedFlat_apply (A := 16) (B := 64) (R := 1024) v0 Facts₀.reduces_S16x64x768_S16x64 (.inl rfl) rfl Facts₀.shapeCasts_S16x64_S16x64x1
    Facts₀.broadcasts_S16x64x1_S16x64x768 Facts₀.shapeCasts_S16x64x768_S1024x768 q i r hr d

/-- A flattened normalized passage row. -/
theorem pFlat_apply (v1 : Vec Ideal S8x256x768 .f32) (p : Fin 8) (j : Fin 256) (s : Fin 2048) (hs : s.val = p.val * 256 + j.val) (d : Fin 768) :
    pFlat v1 (ix2 s d) = unit (fun d' => v1 (ix3 p j d')) d :=
  normedFlat_apply (A := 8) (B := 256) (R := 2048) v1 Facts₀.reduces_S8x256x768_S8x256 (.inl rfl) rfl Facts₀.shapeCasts_S8x256_S8x256x1
    Facts₀.broadcasts_S8x256x1_S8x256x768 Facts₀.shapeCasts_S8x256x768_S2048x768 p j s hs d

theorem lhs_row (i : S1024x2048.Idx) (k : dot_S1024x768_S2048x768_S1024x2048_1_1_0_0_n_n.contr.Idx) : (dot_S1024x768_S2048x768_S1024x2048_1_1_0_0_n_n.lhsIdx i k 0).val = (i 0).val := by
  unfold DotDims.lhsIdx
  rw [dif_neg (show ¬(0 : Fin S1024x768.rank) ∈ dot_S1024x768_S2048x768_S1024x2048_1_1_0_0_n_n.lhsBatch by decide), dif_pos (show (0 : Fin S1024x768.rank) ∈ dot_S1024x768_S2048x768_S1024x2048_1_1_0_0_n_n.lhsNonContracting by decide)]
  rfl
theorem rhs_row (i : S1024x2048.Idx) (k : dot_S1024x768_S2048x768_S1024x2048_1_1_0_0_n_n.contr.Idx) : (dot_S1024x768_S2048x768_S1024x2048_1_1_0_0_n_n.rhsIdx i k 0).val = (i 1).val := by
  unfold DotDims.rhsIdx
  rw [dif_neg (show ¬(0 : Fin S2048x768.rank) ∈ dot_S1024x768_S2048x768_S1024x2048_1_1_0_0_n_n.rhsBatch by decide), dif_pos (show (0 : Fin S2048x768.rank) ∈ dot_S1024x768_S2048x768_S1024x2048_1_1_0_0_n_n.rhsNonContracting by decide)]
  rfl

/-- The product of two row matrices over the lanes, at `(r, s)`: the sum over the lanes of row `r` times row `s`. -/
theorem rowProduct_apply (L : FVec Ideal S1024x768 .bf16) (M : FVec Ideal S2048x768 .bf16) (r : Fin 1024) (s : Fin 2048) :
    matmul dot_S1024x768_S2048x768_S1024x2048_1_1_0_0_n_n none L M (constant S1024x2048 .f32 0x00000000#32) (ix2 r s) = ∑ k : Fin 768, L (ix2 r k) * M (ix2 s k) := by
  show FloatOps.matmul dot_S1024x768_S2048x768_S1024x2048_1_1_0_0_n_n none L M (constant S1024x2048 .f32 0x00000000#32) (ix2 r s) = _
  rw [Ideal.matmul_constant_zero_apply, ← Equiv.sum_comp (ValueIdx.contrEquiv1 dot_S1024x768_S2048x768_S1024x2048_1_1_0_0_n_n 768 rfl rfl).symm]
  refine Finset.sum_congr rfl fun k _ => ?_
  have hk := ValueIdx.contrEquiv1_symm_val dot_S1024x768_S2048x768_S1024x2048_1_1_0_0_n_n 768 rfl rfl k
  have el : dot_S1024x768_S2048x768_S1024x2048_1_1_0_0_n_n.lhsIdx (ix2 r s) ((ValueIdx.contrEquiv1 dot_S1024x768_S2048x768_S1024x2048_1_1_0_0_n_n 768 rfl rfl).symm k) = ix2 r k := funext fun a => Fin.ext (by
    match a with
    | ⟨0, _⟩ => exact lhs_row _ _
    | ⟨1, _⟩ => exact (dot_S1024x768_S2048x768_S1024x2048_1_1_0_0_n_n.lhsIdx_val_of_single rfl _ _).trans hk)
  have er : dot_S1024x768_S2048x768_S1024x2048_1_1_0_0_n_n.rhsIdx (ix2 r s) ((ValueIdx.contrEquiv1 dot_S1024x768_S2048x768_S1024x2048_1_1_0_0_n_n 768 rfl rfl).symm k) = ix2 s k := funext fun a => Fin.ext (by
    match a with
    | ⟨0, _⟩ => exact rhs_row _ _
    | ⟨1, _⟩ => exact (dot_S1024x768_S2048x768_S1024x2048_1_1_0_0_n_n.rhsIdx_val_of_single rfl _ _).trans hk)
  rw [el, er]

/-- A similarity of the block. -/
theorem simBlock_apply (v0 : Vec Ideal S16x64x768 .f32) (v1 : Vec Ideal S8x256x768 .f32) (q : Fin 16) (i : Fin 64) (p : Fin 8) (j : Fin 256)
    (r : Fin 1024) (hr : r.val = q.val * 64 + i.val) (s : Fin 2048) (hs : s.val = p.val * 256 + j.val) :
    simBlock v0 v1 (ix2 r s) = sim (fun d => v0 (ix3 q i d)) (fun d => v1 (ix3 p j d)) := by
  unfold simBlock
  refine (rowProduct_apply _ _ r s).trans ?_
  unfold sim
  refine Finset.sum_congr rfl fun k _ => ?_
  show qFlat v0 (ix2 r k) * pFlat v1 (ix2 s k) = _
  rw [qFlat_apply v0 q i r hr k, pFlat_apply v1 p j s hs k]

/-- The maxima over the passage rows `j`, laid out `[q, i, p]`. -/
def maxOverJ (v0 : Vec Ideal S16x64x768 .f32) (v1 : Vec Ideal S8x256x768 .f32) : FVec Ideal S16x64x8 .f32 :=
  multiReduction .maximumf [3] S16x64x8 (shapeCast S16x64x8x256 (simBlock v0 v1) Facts₀.shapeCasts_S1024x2048_S16x64x8x256)
    0xFF800000#32 Facts₀.reduces_S16x64x8x256_S16x64x8 (.inl rfl) rfl

/-- The maxima over the query rows `i` of those, laid out `[q, p]`. -/
def maxOverI (v0 : Vec Ideal S16x64x768 .f32) (v1 : Vec Ideal S8x256x768 .f32) : FVec Ideal S16x8 .f32 :=
  multiReduction .maximumf [2] S16x8 (transpose S16x8x64 [0, 2, 1] (maxOverJ v0 v1) Facts₀.transposes_S16x64x8_p0_2_1_S16x8x64)
    0xFF800000#32 Facts₀.reduces_S16x8x64_S16x8 (.inl rfl) rfl

theorem pay_eq' (v0 : Vec Ideal S16x64x768 .f32) (v1 : Vec Ideal S8x256x768 .f32) :
    k0_pay1 (F := Ideal) v0 v1 = transpose S8x16 [1, 0] (maxOverI v0 v1) Facts₀.transposes_S16x8_p1_0_S8x16 := rfl

set_option maxHeartbeats 2000000 in
/-- For query row `i` of query `q` and the block's passage `p`: the best similarity over the passage's rows. -/
theorem maxOverJ_apply (v0 : Vec Ideal S16x64x768 .f32) (v1 : Vec Ideal S8x256x768 .f32) (q : Fin 16) (i : Fin 64) (p : Fin 8) :
    maxOverJ v0 v1 (ix3 q i p)
      = (Finset.univ : Finset (Fin 256)).fold max negInf fun j => sim (fun d => v0 (ix3 q i d)) (fun d => v1 (ix3 p j d)) := by
  unfold maxOverJ
  refine (Ideal.multiReduction_maximumf_single (s := S16x64x8x256) (t := S16x64x8) (a := 3)
    (shapeCast S16x64x8x256 (simBlock v0 v1) Facts₀.shapeCasts_S1024x2048_S16x64x8x256) 0xFF800000#32
    Facts₀.reduces_S16x64x8x256_S16x64x8 (.inl rfl) rfl (ix3 q i p)).trans ?_
  refine Finset.fold_congr fun j _ => ?_
  have e2 : Facts₀.reduces_S16x64x8x256_S16x64x8.lift (ix3 q i p) j = ix4 q i p j := funext fun c => Fin.ext (by
    match c with
    | ⟨0, _⟩ => rfl
    | ⟨1, _⟩ => rfl
    | ⟨2, _⟩ => rfl
    | ⟨3, _⟩ => rfl)
  rw [Function.comp_apply, e2]
  have hq := q.isLt; have hi := i.isLt; have hp := p.isLt; have hj : j.val < 256 := j.isLt
  refine (shapeCast_apply (simBlock v0 v1) Facts₀.shapeCasts_S1024x2048_S16x64x8x256 (ix4 q i p j)
    (ix2 (⟨q.val * 64 + i.val, by omega⟩ : Fin 1024) (⟨p.val * 256 + j.val, by omega⟩ : Fin 2048)) (by
      rw [Shape.rowMajor_val_two, Shape.rowMajor_val_four]
      show (q.val * 64 + i.val) * 2048 + (p.val * 256 + j.val) = ((q.val * 64 + i.val) * 8 + p.val) * 256 + j.val
      omega)).trans ?_
  exact simBlock_apply v0 v1 q i p j _ rfl _ rfl

set_option maxHeartbeats 2000000 in
/-- For query `q` and the block's passage `p`: the score. -/
theorem maxOverI_apply (v0 : Vec Ideal S16x64x768 .f32) (v1 : Vec Ideal S8x256x768 .f32) (q : Fin 16) (p : Fin 8) :
    maxOverI v0 v1 (ix2 q p) = scoreAt v0 v1 q p := by
  unfold maxOverI
  refine (Ideal.multiReduction_maximumf_single (s := S16x8x64) (t := S16x8) (a := 2)
    (transpose S16x8x64 [0, 2, 1] (maxOverJ v0 v1) Facts₀.transposes_S16x64x8_p0_2_1_S16x8x64) 0xFF800000#32
    Facts₀.reduces_S16x8x64_S16x8 (.inl rfl) rfl (ix2 q p)).trans ?_
  unfold scoreAt score
  refine Finset.fold_congr fun i _ => ?_
  have e1 : Facts₀.reduces_S16x8x64_S16x8.lift (ix2 q p) i = ix3 q p i := funext fun c => Fin.ext (by
    match c with
    | ⟨0, _⟩ => rfl
    | ⟨1, _⟩ => rfl
    | ⟨2, _⟩ => rfl)
  rw [Function.comp_apply, e1]
  refine (transpose_ix3_021_apply (maxOverJ v0 v1) Facts₀.transposes_S16x64x8_p0_2_1_S16x8x64 q p i).trans ?_
  exact maxOverJ_apply v0 v1 q i p

/-- The stored block at `(p, q)`: the score of query `q` against the block's passage `p`. -/
theorem payload_apply (v0 : Vec Ideal S16x64x768 .f32) (v1 : Vec Ideal S8x256x768 .f32) (p : Fin 8) (q : Fin 16) :
    k0_pay1 (F := Ideal) v0 v1 (ix2 p q) = scoreAt v0 v1 q p := by
  rw [pay_eq']
  refine (transpose_ix2_apply (maxOverI v0 v1) Facts₀.transposes_S16x8_p1_0_S8x16 p q).trans ?_
  exact maxOverI_apply v0 v1 q p

end Cert.KernelIdeal.KValue

end
-- ==== Proof.KernelArray.lean ====
/-
  The array the region leaves: at `(p, q)` the max-sim score of query `q` against passage `p`, for all 128 passages.

  Grid point `t` reads the whole query array and passages `8 t … 8 t + 7`, and writes back rows `8 t … 8 t + 7` of the
  result; by the block lemma what it writes at `(p', q)` is the score of query `q` against its passage `p'`, that is
  against passage `8 t + p'` of the argument. The sixteen blocks tile the 128 rows (row `p` is in block `p / 8`), so the
  array ends at the one function `(p, q) ↦ score q p` of the two argument arrays.
-/
import proofs.«111150_j50242527428853_1_alg».proof.Proof.KernelIdealFrame
import proofs.«111150_j50242527428853_1_alg».proof.Proof.KernelBlock

set_option maxRecDepth 16384

noncomputable section

namespace Cert.KernelIdeal.KValue

open Cert.KernelIdeal Cert.KernelIdeal.Gen Cert.KernelIdeal.Region
open Idealize.ShloMosaic Idealize.ShloMosaic.TcCoe Idealize.SL.Sem Idealize.ShloMosaic.ValueIdx Cert.MaxSim

variable (m : (ℓ : Loc nD τ sig) → Buf (Elt Ideal) ℓ)

/-- The scores, laid out passage-major as the region's result is. -/
def scoresT (x0 : S16x64x768.Idx → EReal) (x1 : S128x256x768.Idx → EReal) : S128x16.Idx → EReal :=
  fun i => scoreAt x0 x1 (i 1) (i 0)

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the grid: the query window stays at block 0; the passage window and the result window are at
    block `t` on their leading axis. -/
theorem block_indices : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- What point `t` writes back is block `t` of the scores of the arrays as the region finds them. -/
theorem flushed_eq (c : Dev nD) (t : Fin cfg0.N) :
    (dats m 0 c).flushed 2 t = ((cfg0.win 2).blk t).view.read (Elt Ideal) (scoresT (V m c main_arg0) (V m c main_arg1)) := by
  show (cfg0.win 2).cut (grid0.coords t) ((dats m 0 c).after 2 t) = _
  rw [after_o]
  unfold blockOut
  rw [View.canon_unit_zero zero2]
  simp only [View.ld_unit_zero (S := S16x64x768) zero3, View.ld_unit_zero (S := S8x256x768) zero3]
  obtain ⟨a0, a1, a2, b0, b1, b2, o0, o1⟩ := block_indices t
  funext y
  obtain ⟨p, q, rfl⟩ : ∃ (p : Fin 8) (q : Fin 16), y = ix2 p q := ⟨y 0, y 1, eq_ix2 y⟩
  refine (payload_apply _ _ p q).trans ?_
  show scoreAt (iblk m c 0 t) (iblk m c 1 t) q p
    = scoreAt (V m c main_arg0) (V m c main_arg1) ((((cfg0.win 2).blk t).view.emb (ix2 p q)) 1) ((((cfg0.win 2).blk t).view.emb (ix2 p q)) 0)
  have hp := p.isLt; have hq := q.isLt; have ht : t.val < 16 := t.isLt
  have hb : t.val * 8 + p.val < 128 := by omega
  have eq1 : ((((cfg0.win 2).blk t).view.emb (ix2 p q)) 1 : Fin 16) = q := Fin.ext (by
    show win0_2.index t (1 : Fin 2) * 16 + 1 * q.val = q.val
    omega)
  have ep : ((((cfg0.win 2).blk t).view.emb (ix2 p q)) 0 : Fin 128) = (⟨t.val * 8 + p.val, hb⟩ : Fin 128) := Fin.ext (by
    show win0_2.index t (0 : Fin 2) * 8 + 1 * p.val = t.val * 8 + p.val
    omega)
  rw [eq1, ep]
  unfold scoreAt
  have hQ : (fun (i : Fin 64) (d : Fin 768) => iblk m c 0 t (ix3 q i d)) = fun i d => V m c main_arg0 (ix3 q i d) :=
    funext fun i => funext fun d => by
      show V m c main_arg0 (((cfg0.win 0).blk t).view.emb (ix3 q i d)) = V m c main_arg0 (ix3 q i d)
      refine congrArg (V m c main_arg0) (funext fun a => Fin.ext ?_)
      match a with
      | ⟨0, _⟩ => show win0_0.index t (0 : Fin 3) * 16 + 1 * q.val = q.val; omega
      | ⟨1, _⟩ => show win0_0.index t (1 : Fin 3) * 64 + 1 * i.val = i.val; omega
      | ⟨2, _⟩ => show win0_0.index t (2 : Fin 3) * 768 + 1 * d.val = d.val; omega
  have hP : (fun (j : Fin 256) (d : Fin 768) => iblk m c 1 t (ix3 p j d))
      = fun j d => V m c main_arg1 (ix3 (⟨t.val * 8 + p.val, hb⟩ : Fin 128) j d) :=
    funext fun j => funext fun d => by
      show V m c main_arg1 (((cfg0.win 1).blk t).view.emb (ix3 p j d)) = V m c main_arg1 (ix3 (⟨t.val * 8 + p.val, hb⟩ : Fin 128) j d)
      refine congrArg (V m c main_arg1) (funext fun a => Fin.ext ?_)
      match a with
      | ⟨0, _⟩ => show win0_1.index t (0 : Fin 3) * 8 + 1 * p.val = t.val * 8 + p.val; omega
      | ⟨1, _⟩ => show win0_1.index t (1 : Fin 3) * 256 + 1 * j.val = j.val; omega
      | ⟨2, _⟩ => show win0_1.index t (2 : Fin 3) * 768 + 1 * d.val = d.val; omega
  rw [hQ, hP]

/-- An index of the result is in point `t`'s block iff each coordinate is in the block's range. -/
theorem mem_block (t : Fin cfg0.N) (i : S128x16.Idx) :
    i ∈ ((cfg0.win 2).blk t).view.set ↔ ∀ a : Fin 2, win0_2.index t a * S8x16.size a ≤ (i a).val ∧ (i a).val < win0_2.index t a * S8x16.size a + S8x16.size a := by
  show i ∈ ((View.whole main_v4).slice (win0_2.rect t)).set ↔ _
  rw [View.set_slice_whole, Rect.mem_set_unit]
  exact Iff.rfl

/-- Every index of the result is in some point's block: row `p` in block `p / 8`. -/
theorem covered (i : S128x16.Idx) : ∃ t : Fin cfg0.N, (cfg0.win 2).flush t = true ∧ i ∈ ((cfg0.win 2).blk t).view.set := by
  have hi0 : (i 0).val < 128 := (i 0).isLt
  have hi1 : (i 1).val < 16 := (i 1).isLt
  let t : Fin cfg0.N := ⟨(i 0).val / 8, by rw [show cfg0.N = 16 from N_0]; omega⟩
  obtain ⟨-, -, -, -, -, -, o0, o1⟩ := block_indices t
  have tv : t.val = (i 0).val / 8 := rfl
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 16 ≤ (i 1).val ∧ (i 1).val < win0_2.index t (1 : Fin 2) * 16 + 16; omega

/-- The region's result after the last point: the scores of the two argument arrays as launched. -/
theorem regionOut_eq (c : Dev nD) :
    (dats m 0 c).arrAt 2 cfg0.N = scoresT (m ((c : Thread nD τ).loc main_arg0)) (m ((c : Thread nD τ).loc main_arg1)) := by
  rw [← V_main_arg0 m c, ← V_main_arg1 m c]
  exact (dats m 0 c).arrAt_eq_of_cover 2 (scoresT (V m c main_arg0) (V m c main_arg1)) (fun t _ => flushed_eq m c t) covered

end Cert.KernelIdeal.KValue

end
-- ==== Proof.RefLoss.lean ====
/-
  The reference's result is the shared loss of three of its own stages: its pooled queries, its pooled passages and its
  multivector score matrix. Every line of the reference after those three is a line of the loss, in the same spelling.
-/
import proofs.«111150_j50242527428853_1_alg».proof.Proof.Gen.ReferenceIdeal.Read
import proofs.«111150_j50242527428853_1_alg».proof.Proof.Loss

noncomputable section

namespace Cert.ReferenceIdeal.RefValue

open Cert.ReferenceIdeal Idealize.ShloMosaic

variable {F : FTy → Type} [FloatOps F]

set_option maxRecDepth 16384 in
theorem result_is_loss (x0 : (⟨S16x64x768, .f32⟩ : BufTy).Contents (Elt F)) (x1 : (⟨S128x256x768, .f32⟩ : BufTy).Contents (Elt F)) :
    Read.val_main_v112 (F := F) x0 x1
      = Cert.KernelIdeal.Loss.loss (F := F) (Read.val_main_v1 (F := F) x0) (Read.val_main_v3 (F := F) x1) (Read.val_main_v17 (F := F) x0 x1) := rfl

end Cert.ReferenceIdeal.RefValue

end
-- ==== Proof.RefScores.lean ====
/-
  The reference's multivector scores, index by index.

  The reference normalizes every token row of both arrays by its clamped length, contracts the 768 lanes of every passage row
  against every query row (`[p, j, q, i]`), reorders to `[q, p, i, j]`, and takes the maximum over `j`, then over `i`.
  Each product of the contraction has its two factors in the other order from the kernel's, which commutes; nothing else
  differs from the score of query `q` against passage `p`.
-/
import proofs.«111150_j50242527428853_1_alg».proof.Proof.Gen.ReferenceIdeal.Read
import proofs.«111150_j50242527428853_1_alg».proof.Proof.Spec

noncomputable section

namespace Cert.ReferenceIdeal.RefValue

open Cert.ReferenceIdeal Cert.ReferenceIdeal.Read Idealize.ShloMosaic Idealize.ShloMosaic.ValueIdx Cert.MaxSim

/-- A normalized query row. -/
theorem qUnit_apply (x0 : (⟨S16x64x768, .f32⟩ : BufTy).Contents (Elt Ideal)) (q : Fin 16) (i : Fin 64) (d : Fin 768) :
    val_main_v8 (F := Ideal) x0 (ix3 q i d) = unit (fun d' => x0 (ix3 q i d')) d := by
  have e1 : ∀ k : Fin 768, idx_main_call0_v1 (idx_main_call0_v2 (idx_main_v7 (ix3 q i d))) k = ix3 q i k := fun k =>
    funext fun a => Fin.ext (by
      match a with
      | ⟨0, _⟩ => rfl
      | ⟨1, _⟩ => rfl
      | ⟨2, _⟩ => rfl)
  rw [val_main_v8_apply, val_main_v7_apply, val_main_v6_apply, val_main_v4_apply, val_main_call0_v2_apply, val_main_call0_v1_apply,
    val_main_v5_apply]
  simp only [e1, val_main_call0_v0_apply, val_main_call0_cst_apply, val_main_cst_apply, Ideal.hostDivf_def, Ideal.maximumf_def,
    Ideal.hostUnary_sqrt_def, Ideal.mulf_def, Ideal.ofBits_def, Ideal.ofBits_zero_f32, zero_add]
  rfl

/-- A normalized passage row. -/
theorem pUnit_apply (x1 : (⟨S128x256x768, .f32⟩ : BufTy).Contents (Elt Ideal)) (p : Fin 128) (j : Fin 256) (d : Fin 768) :
    val_main_v13 (F := Ideal) x1 (ix3 p j d) = unit (fun d' => x1 (ix3 p j d')) d := by
  have e1 : ∀ k : Fin 768, idx_main_call1_v1 (idx_main_call1_v2 (idx_main_v12 (ix3 p j d))) k = ix3 p j k := fun k =>
    funext fun a => Fin.ext (by
      match a with
      | ⟨0, _⟩ => rfl
      | ⟨1, _⟩ => rfl
      | ⟨2, _⟩ => rfl)
  rw [val_main_v13_apply, val_main_v12_apply, val_main_v11_apply, val_main_v9_apply, val_main_call1_v2_apply, val_main_call1_v1_apply,
    val_main_v10_apply]
  simp only [e1, val_main_call1_v0_apply, val_main_call1_cst_apply, val_main_cst_0_apply, Ideal.hostDivf_def, Ideal.maximumf_def,
    Ideal.hostUnary_sqrt_def, Ideal.mulf_def, Ideal.ofBits_def, Ideal.ofBits_zero_f32, zero_add]
  rfl

/-- A similarity, in the reference's reordered layout `[q, p, i, j]`. -/
theorem sims_apply (x0 : (⟨S16x64x768, .f32⟩ : BufTy).Contents (Elt Ideal)) (x1 : (⟨S128x256x768, .f32⟩ : BufTy).Contents (Elt Ideal))
    (q : Fin 16) (p : Fin 128) (i : Fin 64) (j : Fin 256) :
    val_main_v15 (F := Ideal) x0 x1 (ix4 q p i j) = sim (fun d => x0 (ix3 q i d)) (fun d => x1 (ix3 p j d)) := by
  have el : ∀ k : Fin 768, lidx_main_v14 (idx_main_v15 (ix4 q p i j)) k = ix3 p j k := fun k => funext fun a => Fin.ext (by
    match a with
    | ⟨0, _⟩ => rfl
    | ⟨1, _⟩ => rfl
    | ⟨2, _⟩ => rfl)
  have er : ∀ k : Fin 768, ridx_main_v14 (idx_main_v15 (ix4 q p i j)) k = ix3 q i k := fun k => funext fun a => Fin.ext (by
    match a with
    | ⟨0, _⟩ => rfl
    | ⟨1, _⟩ => rfl
    | ⟨2, _⟩ => rfl)
  rw [val_main_v15_apply, val_main_v14_apply]
  unfold sim
  refine Finset.sum_congr rfl fun k _ => ?_
  rw [el, er, pUnit_apply, qUnit_apply]
  exact mul_comm _ _

/-- The host's maximum fold is the fold of `max`. -/
theorem fold_maximumf {ι : Type} (s : Finset ι) (b : EReal) (f : ι → EReal) :
    s.fold (FloatOps.maximumf (F := Ideal) (φ := .f32)) b f = s.fold max b f := rfl

/-- For query row `i` of query `q` and passage `p`: the best similarity over the passage's rows. -/
theorem rowMax_apply (x0 : (⟨S16x64x768, .f32⟩ : BufTy).Contents (Elt Ideal)) (x1 : (⟨S128x256x768, .f32⟩ : BufTy).Contents (Elt Ideal))
    (q : Fin 16) (p : Fin 128) (i : Fin 64) :
    val_main_v16 (F := Ideal) x0 x1 (ix3 q p i)
      = (Finset.univ : Finset (Fin 256)).fold max negInf fun j => sim (fun d => x0 (ix3 q i d)) (fun d => x1 (ix3 p j d)) := by
  have h3 : S16x128x64x256.Reduces [3] S16x128x64 := by decide
  have e3 : ∀ j : Fin 256, h3.lift (ix3 q p i) j = ix4 q p i j := fun j => funext fun c => Fin.ext (by
    match c with
    | ⟨0, _⟩ => rfl
    | ⟨1, _⟩ => rfl
    | ⟨2, _⟩ => rfl
    | ⟨3, _⟩ => rfl)
  unfold val_main_v16
  rw [Host.reduce_eq_fold_single FloatOps.maximumf _ _ Facts₀.reducesTo_S16x128x64x256_S16x128x64_d3 h3 Facts₀.h_S_ (ix3 q p i), fold_maximumf]
  refine Finset.fold_congr fun j _ => ?_
  rw [Function.comp_apply, e3 j]
  exact sims_apply x0 x1 q p i j

/-- The reference's score matrix at `(q, p)`. -/
theorem scores_apply (x0 : (⟨S16x64x768, .f32⟩ : BufTy).Contents (Elt Ideal)) (x1 : (⟨S128x256x768, .f32⟩ : BufTy).Contents (Elt Ideal))
    (q : Fin 16) (p : Fin 128) :
    val_main_v17 (F := Ideal) x0 x1 (ix2 q p) = scoreAt x0 x1 q p := by
  have h2 : S16x128x64.Reduces [2] S16x128 := by decide
  have e2 : ∀ i : Fin 64, h2.lift (ix2 q p) i = ix3 q p i := fun i => funext fun c => Fin.ext (by
    match c with
    | ⟨0, _⟩ => rfl
    | ⟨1, _⟩ => rfl
    | ⟨2, _⟩ => rfl)
  unfold val_main_v17
  rw [Host.reduce_eq_fold_single FloatOps.maximumf _ _ Facts₀.reducesTo_S16x128x64_S16x128_d2 h2 Facts₀.h_S_ (ix2 q p), fold_maximumf]
  unfold scoreAt score
  refine Finset.fold_congr fun i _ => ?_
  rw [Function.comp_apply, e2 i]
  exact rowMax_apply x0 x1 q p i

end Cert.ReferenceIdeal.RefValue

end
-- ==== Proof.Bridge.lean ====
/-
  The two idealized programs return the same number.

  Both return the shared loss of three matrices. The pooled queries and pooled passages are, in both programs, the
  first token row of every query and of every passage of the same argument arrays, cut out by the same two host lines.
  The third matrix is the multivector scores: the kernel program's is its region's result transposed, which holds at
  `(q, p)` the max-sim score of query `q` against passage `p`; the reference's holds the same score, its contraction's
  factors in the other order. So the three matrices agree and the loss of them is one number.
-/
import proofs.«111150_j50242527428853_1_alg».proof.Defs
import proofs.«111150_j50242527428853_1_alg».proof.Proof.Gen.Pre_finite_inputs
import proofs.«111150_j50242527428853_1_alg».proof.Proof.KernelLoss
import proofs.«111150_j50242527428853_1_alg».proof.Proof.KernelArray
import proofs.«111150_j50242527428853_1_alg».proof.Proof.RefLoss
import proofs.«111150_j50242527428853_1_alg».proof.Proof.RefScores

noncomputable section

namespace Cert.Proof.Bridge

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)

/-- The kernel program's pooled queries are the reference's, of the same argument. -/
theorem pooled_queries (c : Dev Cert.KernelIdeal.nD) :
    Cert.KernelIdeal.Region.V m c Cert.KernelIdeal.main_v1
      = Cert.ReferenceIdeal.Read.val_main_v1 (F := Ideal) (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v1) = _
  after_results
  rfl

/-- The kernel program's pooled passages are the reference's, of the same argument. -/
theorem pooled_passages (c : Dev Cert.KernelIdeal.nD) :
    Cert.KernelIdeal.Region.V m c Cert.KernelIdeal.main_v3
      = Cert.ReferenceIdeal.Read.val_main_v3 (F := Ideal) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v3) = _
  after_results
  rfl

/-- The region's result, transposed, is the reference's score matrix. -/
theorem scores_agree (c : Dev Cert.KernelIdeal.nD) :
    transpose Cert.KernelIdeal.S16x128 [1, 0] (Cert.KernelIdeal.KValue.regionOut m c) Cert.KernelIdeal.Facts₀.transposes_S128x16_S16x128_1_0
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext y
  obtain ⟨q, p, rfl⟩ : ∃ (q : Fin 16) (p : Fin 128), y = ix2 q p := ⟨y 0, y 1, eq_ix2 y⟩
  refine (transpose_ix2_apply _ Cert.KernelIdeal.Facts₀.transposes_S128x16_S16x128_1_0 q p).trans ?_
  refine Eq.trans ?_ (Cert.ReferenceIdeal.RefValue.scores_apply _ _ q p).symm
  show (Cert.KernelIdeal.Region.dats m 0 c).arrAt 2 Cert.KernelIdeal.cfg0.N (ix2 p q) = _
  rw [Cert.KernelIdeal.KValue.regionOut_eq m c]
  rfl

/-- The kernel program's result is the loss of the reference's three stages of the kernel program's own arguments. -/
theorem kernel_loss (c : Dev Cert.KernelIdeal.nD) :
    Cert.KernelIdeal.Loss.loss (F := Ideal) (Cert.KernelIdeal.Region.V m c Cert.KernelIdeal.main_v1) (Cert.KernelIdeal.Region.V m c Cert.KernelIdeal.main_v3)
        (transpose Cert.KernelIdeal.S16x128 [1, 0] (Cert.KernelIdeal.KValue.regionOut m c) Cert.KernelIdeal.Facts₀.transposes_S128x16_S16x128_1_0)
      = Cert.KernelIdeal.Loss.loss (F := Ideal)
          (Cert.ReferenceIdeal.Read.val_main_v1 (F := Ideal) (m ((c.tc : Thread Cert.KernelIdeal.nD Cert.KernelIdeal.τ).loc Cert.KernelIdeal.main_arg0)))
          (Cert.ReferenceIdeal.Read.val_main_v3 (F := Ideal) (m ((c.tc : Thread Cert.KernelIdeal.nD Cert.KernelIdeal.τ).loc Cert.KernelIdeal.main_arg1)))
          (Cert.ReferenceIdeal.Read.val_main_v17 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))) := by
  rw [pooled_queries m c, pooled_passages m c, scores_agree m c]

/-- Run from memories that agree on the arguments, the two idealized programs end with equal results and unchanged arguments. -/
theorem algebraic : Cert.algebraic_KernelIdeal_ReferenceIdeal := by
  intro m ρ m' ρ' _ hagree
  refine ⟨fun c => Cert.KernelIdeal.Loss.loss (F := Ideal)
      (Cert.ReferenceIdeal.Read.val_main_v1 (F := Ideal) (m ((c.tc : Thread Cert.KernelIdeal.nD Cert.KernelIdeal.τ).loc Cert.KernelIdeal.main_arg0)))
      (Cert.ReferenceIdeal.Read.val_main_v3 (F := Ideal) (m ((c.tc : Thread Cert.KernelIdeal.nD Cert.KernelIdeal.τ).loc Cert.KernelIdeal.main_arg1)))
      (Cert.ReferenceIdeal.Read.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · exact (θ_run Cert.KernelIdeal.defs _ _).mono (fun _ h c => ⟨(h c).1.trans (kernel_loss m c), (h c).2⟩)
      (Cert.KernelIdeal.KValue.run_loss m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v112_eq, Cert.ReferenceIdeal.RefValue.result_is_loss, (hagree c).1, (hagree c).2]

end Cert.Proof.Bridge

end
-- ==== Proof.lean ====
/-
  The certificate of a dual-encoder loss whose multivector max-sim scores are computed by a tiled kernel, against its plain
  reference, at the extended reals.

  The three frames: each of the two kernel programs is four host lines, one region over sixteen grid points whose body keeps
  nothing between points, and a host tail that allocates nothing and writes no staged array (KernelFrame, KernelIdealFrame: one
  text at two instances); the reference is host lines only, and its frame is its run with the result dropped.
  The idealization rewrote nothing, so there is nothing to preserve. The algebraic claim: both idealized programs return the
  shared loss (Loss) of the pooled rows and of the multivector scores; the kernel's region leaves the scores transposed
  (KernelBlock, KernelArray, over the specification Spec and the normalized-rows lemma LibNormedRows), the reference computes
  them with the contraction's factors commuted (RefScores), and the rest of each program is the loss line for line
  (KernelLoss, RefLoss); Bridge joins the two.
-/
import proofs.«111150_j50242527428853_1_alg».proof.Defs
import proofs.«111150_j50242527428853_1_alg».proof.Proof.Gen.Kernel
import proofs.«111150_j50242527428853_1_alg».proof.Proof.Gen.KernelIdeal
import proofs.«111150_j50242527428853_1_alg».proof.Proof.Gen.ReferenceIdeal
import proofs.«111150_j50242527428853_1_alg».proof.Proof.Gen.Pre_finite_inputs
import proofs.«111150_j50242527428853_1_alg».proof.Proof.Gen.ReferenceIdeal.Read
import proofs.«111150_j50242527428853_1_alg».proof.Proof.KernelFrame
import proofs.«111150_j50242527428853_1_alg».proof.Proof.KernelIdealFrame
import proofs.«111150_j50242527428853_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ
theorem frame_kernelIdeal : Cert.frame_KernelIdeal := fun m ρ _ => Cert.KernelIdeal.Region.frame m ρ
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.Bridge.algebraic⟩

end Cert.Proof

end
